-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S100000x128 .f32) (main_arg1 : IVec S2x1600000 32) (main_arg2 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  main_v8
-- ==== Kernel.lean ====
abbrev S100000x128 : Shape := ⟨2, ![100000, 128]⟩
abbrev S2x1600000 : Shape := ⟨2, ![2, 1600000]⟩
abbrev S128x128 : Shape := ⟨2, ![128, 128]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S5000x128 : Shape := ⟨2, ![5000, 128]⟩
abbrev S5000x1 : Shape := ⟨2, ![5000, 1]⟩
abbrev S1700000x128 : Shape := ⟨2, ![1700000, 128]⟩

abbrev nBuf : Space → Nat
  | .hbm => 38
  | .vmem => 13
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S1x1600000, .i32⟩
  | .hbm, ⟨4, _⟩ => ⟨S1600000, .i32⟩
  | .hbm, ⟨5, _⟩ => ⟨S1x1600000, .i32⟩
  | .hbm, ⟨6, _⟩ => ⟨S1600000, .i32⟩
  | .hbm, ⟨7, _⟩ => ⟨S100000, .i32⟩
  | .hbm, ⟨8, _⟩ => ⟨S1700000, .i32⟩
  | .hbm, ⟨9, _⟩ => ⟨S1700000, .i32⟩
  | .hbm, ⟨10, _⟩ => ⟨S_, .i32⟩
  | .hbm, ⟨11, _⟩ => ⟨S1700000, .i32⟩
  | .hbm, ⟨12, _⟩ => ⟨S_, .i32⟩
  | .hbm, ⟨13, _⟩ => ⟨S100000, .i32⟩
  | .hbm, ⟨14, _⟩ => ⟨S1700000x1, .i32⟩
  | .hbm, ⟨15, _⟩ => ⟨S100000, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S100000x1, .f32⟩
  | .hbm, ⟨22, _⟩ => ⟨S128x128, .f32⟩
  | .hbm, ⟨23, _⟩ => ⟨S100000x128, .f32⟩
  | .hbm, ⟨24, _⟩ => ⟨S_, .i32⟩
  | .hbm, ⟨25, _⟩ => ⟨S1700000, .i32⟩
  | .hbm, ⟨26, _⟩ => ⟨S1700000, .i1⟩
  | .hbm, ⟨27, _⟩ => ⟨S_, .i32⟩
  | .hbm, ⟨28, _⟩ => ⟨S1700000, .i32⟩
  | .hbm, ⟨29, _⟩ => ⟨S1700000, .i32⟩
  | .hbm, ⟨30, _⟩ => ⟨S1700000, .i32⟩
  | .hbm, ⟨31, _⟩ => ⟨S1700000x1, .i32⟩
  | .hbm, ⟨32, _⟩ => ⟨S1700000x128, .f32⟩
  | .hbm, ⟨33, _⟩ => ⟨S_, .f32⟩
  | .hbm, ⟨34, _⟩ => ⟨S100000x128, .f32⟩
  | .hbm, ⟨35, _⟩ => ⟨S1700000x1, .i32⟩
  | .hbm, ⟨36, _⟩ => ⟨S100000x128, .f32⟩
  | .hbm, ⟨37, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S5000x128, .f32⟩
  | .local _ .vmem, ⟨12, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_c_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c_1 : Ref sig .tc := ⟨.hbm, 24, rfl⟩
abbrev main_v18 : Ref sig .tc := ⟨.hbm, 25, rfl⟩
abbrev main_v19 : Ref sig .tc := ⟨.hbm, 26, rfl⟩
abbrev main_c_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  shapeCasts_S5000x128_S5000x128 : S5000x128.ShapeCasts S5000x128
  scatter_S100000_S1700000x1_S1700000_n_0_0_1_wf : ScatterDims.WF S100000 S1700000x1 S1700000 [] [0] [0] 1
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩

abbrev nBuf : Space → Nat
  | .hbm => 57
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S100000, .i32⟩
  | .hbm, ⟨4, _⟩ => ⟨S1x1600000, .i32⟩
  | .hbm, ⟨5, _⟩ => ⟨S1600000, .i32⟩
  | .hbm, ⟨6, _⟩ => ⟨S1700000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S_, .f32⟩
  | .hbm, ⟨11, _⟩ => ⟨S1700000, .f32⟩
  | .hbm, ⟨12, _⟩ => ⟨S_, .f32⟩
  | .hbm, ⟨13, _⟩ => ⟨S100000, .f32⟩
  | .hbm, ⟨14, _⟩ => ⟨S1700000x1, .i32⟩
  | .hbm, ⟨15, _⟩ => ⟨S100000, .f32⟩
  | .hbm, ⟨16, _⟩ => ⟨S100000, .f32⟩
  | .hbm, ⟨17, _⟩ => ⟨S_, .i32⟩
  | .hbm, ⟨18, _⟩ => ⟨S1700000, .i32⟩
  | .hbm, ⟨19, _⟩ => ⟨S1700000, .i1⟩
  | .hbm, ⟨20, _⟩ => ⟨S_, .i32⟩
  | .hbm, ⟨21, _⟩ => ⟨S1700000, .i32⟩
  | .hbm, ⟨22, _⟩ => ⟨S1700000, .i32⟩
  | .hbm, ⟨23, _⟩ => ⟨S1700000, .i32⟩
  | .hbm, ⟨24, _⟩ => ⟨S1700000x1, .i32⟩
  | .hbm, ⟨25, _⟩ => ⟨S1700000, .f32⟩
  | .hbm, ⟨26, _⟩ => ⟨S_, .i32⟩
  | .hbm, ⟨27, _⟩ => ⟨S1700000, .i32⟩
  | .hbm, ⟨28, _⟩ => ⟨S1700000, .i1⟩
  | .hbm, ⟨29, _⟩ => ⟨S_, .i32⟩
  | .hbm, ⟨30, _⟩ => ⟨S1700000, .i32⟩
  | .hbm, ⟨31, _⟩ => ⟨S1700000, .i32⟩
  | .hbm, ⟨32, _⟩ => ⟨S1700000, .i32⟩
  | .hbm, ⟨33, _⟩ => ⟨S1700000x1, .i32⟩
  | .hbm, ⟨34, _⟩ => ⟨S1700000, .f32⟩
  | .hbm, ⟨35, _⟩ => ⟨S1700000, .f32⟩
  | .hbm, ⟨36, _⟩ => ⟨S128x128, .f32⟩
  | .hbm, ⟨37, _⟩ => ⟨S100000x128, .f32⟩
  | .hbm, ⟨38, _⟩ => ⟨S1700000x1, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000x128, .f32⟩
  | .hbm, ⟨48, _⟩ => ⟨S1700000x128, .f32⟩
  | .hbm, ⟨49, _⟩ => ⟨S1700000x128, .f32⟩
  | .hbm, ⟨50, _⟩ => ⟨S_, .f32⟩
  | .hbm, ⟨51, _⟩ => ⟨S100000x128, .f32⟩
  | .hbm, ⟨52, _⟩ => ⟨S1700000x1, .i32⟩
  | .hbm, ⟨53, _⟩ => ⟨S100000x128, .f32⟩
  | .hbm, ⟨54, _⟩ => ⟨S_, .f32⟩
  | .hbm, ⟨55, _⟩ => ⟨S100000x128, .f32⟩
  | .hbm, ⟨56, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_v12 : Ref sig .tc := ⟨.hbm, 18, rfl⟩
abbrev main_v13 : Ref sig .tc := ⟨.hbm, 19, rfl⟩
abbrev main_c_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_2 : Ref sig .tc := ⟨.hbm, 26, rfl⟩
abbrev main_v19 : Ref sig .tc := ⟨.hbm, 27, rfl⟩
abbrev main_v20 : Ref sig .tc := ⟨.hbm, 28, rfl⟩
abbrev main_c_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_c_4 : Ref sig .tc := ⟨.hbm, 39, rfl⟩
abbrev main_v30 : Ref sig .tc := ⟨.hbm, 40, rfl⟩
abbrev main_v31 : Ref sig .tc := ⟨.hbm, 41, rfl⟩
abbrev main_c_5 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_6 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_call0_cst : Ref sig .tc := ⟨.hbm, 54, rfl⟩
abbrev main_call0_v0 : Ref sig .tc := ⟨.hbm, 55, rfl⟩
abbrev main_v42 : Ref sig .tc := ⟨.hbm, 56, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  transposes_S128x128_S128x128_1_0 : S128x128.Transposes [1, 0] S128x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.KernelRun.lean ====
/-
  The idealized kernel program's run, with its result named.

  The program is four segments: host operations, the projection region, host operations (the gather and the segment
  sum), the scaling region. Every weakly fair execution ends, without a fault, with each unscoped buffer at the
  contents the fold through the four segments gives it; read at the result buffer this is the contents the last
  region leaves in its output array, and read at an argument it is the launch contents.
-/
import proofs.«123095_j1219770712715_2_alg».proof.Proof.Gen.KernelIdeal.Frame

set_option maxRecDepth 16384

noncomputable section

namespace Cert.KernelIdeal.RunResult

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends, nothing faulting, with the result buffer at the last region's
    output array as the fold through the segments names it, and the three arguments as launched. -/
theorem run_result : θ_run defs (onTc (τ := τ) (main (F := F))) ⟨m, fun _ => 0, ρ⟩ (fun r => ∀ c : Dev nD,
      r.2.mem ((c.tc : Thread nD τ).loc main_v28) = W4 m ρ c (Proc.devRef .tc main_v28)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v28 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

end Cert.KernelIdeal.RunResult

end
-- ==== Proof.Spec.lean ====
/-
  The two dense passes of the layer, as functions of whole arrays read index by index on the extended reals.

  projScaled x wt r : row j of x times the matrix wt, every entry of the row then multiplied by r at row j
    (r is a column: one number per row).
  scaleRelu a r     : entry (j, d) of a multiplied by r at row j, then the larger of that and zero.
-/
import Idealize.ShloMosaic.PureOps.Ideal
import Idealize.ShloMosaic.Lib.ValueIdx

noncomputable section

namespace GcnSpec

open Idealize.ShloMosaic Idealize.ShloMosaic.ValueIdx

/-- Row `j` of `x` against column `d` of `wt`, scaled by the row's factor `r j`. -/
def projScaled (x : (⟨2, ![100000, 128]⟩ : Shape).Idx → EReal) (wt : (⟨2, ![128, 128]⟩ : Shape).Idx → EReal)
    (r : (⟨2, ![100000, 1]⟩ : Shape).Idx → EReal) : (⟨2, ![100000, 128]⟩ : Shape).Idx → EReal :=
  fun i => (∑ k : Fin 128, x (ix2 (⟨(i 0).val, idx2_lt0 i⟩ : Fin 100000) k) * wt (ix2 k (⟨(i 1).val, idx2_lt1 i⟩ : Fin 128)))
    * r (ix2 (⟨(i 0).val, idx2_lt0 i⟩ : Fin 100000) (0 : Fin 1))

/-- Entry `(j, d)` of `a` scaled by the row's factor `r j`, then clamped below at zero. -/
def scaleRelu (a : (⟨2, ![100000, 128]⟩ : Shape).Idx → EReal) (r : (⟨2, ![100000, 1]⟩ : Shape).Idx → EReal) :
    (⟨2, ![100000, 128]⟩ : Shape).Idx → EReal :=
  fun i => max (a i * r (ix2 (⟨(i 0).val, idx2_lt0 i⟩ : Fin 100000) (0 : Fin 1))) 0

end GcnSpec

end
-- ==== Proof.LayerDefs.lean ====
/-
  The layer's host computations as operation trees over whole arrays, once for both programs.

  Nodes are 0 … 99999, edges 0 … 1699999 (the last 100000 are the self loops). `row` and `col` give each edge's
  two endpoints as 32-bit words. A node's degree is the number of edges whose `row` endpoint is that node; its
  factor is one over the square root of the degree.

  One program scales each node's projected row by the node's factor, sums over each node's edges the scaled rows of
  the edges' `col` endpoints, scales the sum by the node's factor again and clamps at zero (`kernelOut`). The other
  weighs each edge by the product of its two endpoints' factors, sums over each node's edges the weighted projected
  rows of the `col` endpoints, and clamps at zero (`refOut`).
-/
import Idealize.ShloMosaic.PureOps
import Idealize.ShloMosaic.PureOps.Ideal
import proofs.«123095_j1219770712715_2_alg».proof.Proof.Spec

noncomputable section

namespace GcnLayer

open Idealize.ShloMosaic

abbrev S0 : Shape := ⟨0, ![]⟩
abbrev SE : Shape := ⟨1, ![1700000]⟩
abbrev SE1 : Shape := ⟨2, ![1700000, 1]⟩
abbrev SN : Shape := ⟨1, ![100000]⟩
abbrev SN1 : Shape := ⟨2, ![100000, 1]⟩
abbrev SND : Shape := ⟨2, ![100000, 128]⟩
abbrev SED : Shape := ⟨2, ![1700000, 128]⟩

section
variable (bE : S0.BroadcastsInDim SE (![] : Fin 0 → Fin SE.rank))
  (bN : S0.BroadcastsInDim SN (![] : Fin 0 → Fin SN.rank))
  (bND : S0.BroadcastsInDim SND (![] : Fin 0 → Fin SND.rank))
  (bE1 : SE.BroadcastsInDim SE1 (![0] : Fin 1 → Fin SE1.rank))
  (bED : SE1.BroadcastsInDim SED (![0, 1] : Fin 2 → Fin SED.rank))
  (cN1 : SN.ShapeCasts SN1)
  (d1 : ScatterDims SN SE1 SE) (d2 : ScatterDims SND SE1 SED)
  (g1 : GatherDims SN SE1 SE) (g2 : GatherDims SND SE1 SED)

/-- An endpoint word read the way array indexing reads it: a negative one counts from the end (100000 is added). -/
def wrapIdx (v : SE.Idx → BitVec 32) : SE.Idx → BitVec 32 :=
  select (cmpi .slt v (broadcastInDim SE ![] bE (constantI S0 32 0#32)))
    (addi v (broadcastInDim SE ![] bE (constantI S0 32 100000#32))) v

/-- The edges' endpoint words as a one-column array of scatter or gather positions. -/
def asColumn (v : SE.Idx → BitVec 32) : SE1.Idx → BitVec 32 := broadcastInDim SE1 ![0] bE1 v

/-- Each node's degree counted in 32-bit integers: a one is added at the node for every edge whose `row` endpoint
    it is. -/
def countK (row : SE.Idx → BitVec 32) : SN.Idx → BitVec 32 :=
  Host.scatter d1 IntOp.addi (broadcastInDim SN ![] bN (constantI S0 32 0#32)) (asColumn bE1 row)
    (broadcastInDim SE ![] bE (constantI S0 32 1#32))

/-- Each node's factor, as a column: one over the square root of the larger of the counted degree and one. -/
def factorColK (row : SE.Idx → BitVec 32) : SN1.Idx → EReal :=
  shapeCast SN1 (Host.rsqrt (F := Ideal) (φ := .f32) (maximumf (F := Ideal) (φ := .f32) (sitofp (F := Ideal) .f32 (countK bE bN bE1 d1 row))
    (broadcastInDim SN ![] bN (constant (F := Ideal) S0 .f32 0x3F800000#32)))) cN1

/-- The segment sum over each node's edges of the rows of `hs` at the edges' `col` endpoints. -/
def aggK (hs : SND.Idx → EReal) (row col : SE.Idx → BitVec 32) : SND.Idx → EReal :=
  Host.scatterAdd (F := Ideal) (φ := .f32) d2 (broadcastInDim SND ![] bND (constant (F := Ideal) S0 .f32 0x00000000#32)) (asColumn bE1 row)
    (Host.gather g2 hs (asColumn bE1 (wrapIdx bE col)))

/-- The first program's result from the node features `x`, the weight matrix `wt` and the edges. -/
def kernelOut (x : SND.Idx → EReal) (wt : (⟨2, ![128, 128]⟩ : Shape).Idx → EReal) (row col : SE.Idx → BitVec 32) :
    SND.Idx → EReal :=
  GcnSpec.scaleRelu (aggK bE bND bE1 d2 g2 (GcnSpec.projScaled x wt (factorColK bE bN bE1 cN1 d1 row)) row col)
    (factorColK bE bN bE1 cN1 d1 row)

/-- Each node's factor in the second program: one over the square root of the degree summed in floats. -/
def factorR (row : SE.Idx → BitVec 32) : SN.Idx → EReal :=
  Host.rsqrt (F := Ideal) (φ := .f32) (Host.scatterAdd (F := Ideal) (φ := .f32) d1 (broadcastInDim SN ![] bN (constant (F := Ideal) S0 .f32 0x00000000#32))
    (asColumn bE1 row) (broadcastInDim SE ![] bE (constant (F := Ideal) S0 .f32 0x3F800000#32)))

/-- Each edge's weight: the product of its two endpoints' factors. -/
def edgeWeightR (row col : SE.Idx → BitVec 32) : SE.Idx → EReal :=
  mulf (F := Ideal) (φ := .f32) (Host.gather g1 (factorR bE bN bE1 d1 row) (asColumn bE1 (wrapIdx bE row)))
    (Host.gather g1 (factorR bE bN bE1 d1 row) (asColumn bE1 (wrapIdx bE col)))

/-- The second program's result from the projected features `h` and the edges. -/
def refOut (h : SND.Idx → EReal) (row col : SE.Idx → BitVec 32) : SND.Idx → EReal :=
  maximumf (F := Ideal) (φ := .f32) (Host.scatterAdd (F := Ideal) (φ := .f32) d2 (broadcastInDim SND ![] bND (constant (F := Ideal) S0 .f32 0x00000000#32)) (asColumn bE1 row)
      (mulf (F := Ideal) (φ := .f32) (broadcastInDim SED ![0, 1] bED (broadcastInDim SE1 ![0] bE1 (edgeWeightR bE bN bE1 d1 g1 row col)))
        (Host.gather g2 h (asColumn bE1 (wrapIdx bE col)))))
    (broadcastInDim SND ![] bND (constant (F := Ideal) S0 .f32 0x00000000#32))

end

end GcnLayer

end
-- ==== Proof.KernelHost.lean ====
/-
  What the idealized kernel program's buffers hold at the boundaries of its four segments, as functions of the
  three arguments.

  Before the projection region the host has built the edges' endpoint lists, each node's factor (a column), and the
  transposed weight matrix. The projection region leaves every node's projected row scaled by the node's factor.
  The host then sums, over each node's edges, the scaled rows at the edges' far endpoints. The last region scales
  each sum by the node's factor and clamps at zero. Composed, the result buffer holds `GcnLayer.kernelOut` of the
  arguments.
-/
import proofs.«123095_j1219770712715_2_alg».proof.Proof.Gen.KernelIdeal.Frame
import proofs.«123095_j1219770712715_2_alg».proof.Proof.LayerDefs
import Idealize.ShloMosaic.Lib.StableHlo.Run
import Idealize.ShloMosaic.Lib.Pipeline.Value

set_option maxRecDepth 16384

noncomputable section

namespace Cert.KernelIdeal.HostValue

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window cellOf)

variable (m : (ℓ : Loc nD τ sig) → Buf (Elt Ideal) ℓ) (ρ : Dev nD → PrngReg)

/-- The edges' `row` endpoints: the first row of the edge array, then the nodes 0 … 99999 (the self loops). -/
def rowOf (e : S2x1600000.Idx → BitVec 32) : S1700000.Idx → BitVec 32 :=
  concatenate S1700000 0 [⟨S1600000, shapeCast _ (extractStridedSlice S1x1600000 ![0, 0] e slices_S2x1600000_S1x1600000_0_0) shapeCasts_S1x1600000_S1600000⟩, ⟨S100000, iotaInDim S100000 32 0⟩] concatenates_S1600000_S100000_S1700000_d0

/-- The edges' `col` endpoints: the second row of the edge array, then the nodes 0 … 99999. -/
def colOf (e : S2x1600000.Idx → BitVec 32) : S1700000.Idx → BitVec 32 :=
  concatenate S1700000 0 [⟨S1600000, shapeCast _ (extractStridedSlice S1x1600000 ![1, 0] e slices_S2x1600000_S1x1600000_1_0) shapeCasts_S1x1600000_S1600000⟩, ⟨S100000, iotaInDim S100000 32 0⟩] concatenates_S1600000_S100000_S1700000_d0

/-! ## Before the first region -/

theorem W1_row (c : Dev nD) : W1 m ρ c (Proc.devRef .tc main_v5) = rowOf (m ((c : Thread nD τ).loc main_arg1)) := by
  show StableHlo.after hostOps0 (W0 m ρ c) (Proc.devRef .tc main_v5) = _
  after_results
  rfl

theorem W1_col (c : Dev nD) : W1 m ρ c (Proc.devRef .tc main_v6) = colOf (m ((c : Thread nD τ).loc main_arg1)) := by
  show StableHlo.after hostOps0 (W0 m ρ c) (Proc.devRef .tc main_v6) = _
  after_results
  rfl

theorem W1_factor (c : Dev nD) : W1 m ρ c (Proc.devRef .tc main_v15) =
    GcnLayer.factorColK bcast_S_S1700000 bcast_S_S100000 bcast_S1700000_S1700000x1_0 shapeCasts_S100000_S100000x1
      scatter_S100000_S1700000x1_S1700000_n_0_0_1 (rowOf (m ((c : Thread nD τ).loc main_arg1))) := by
  show StableHlo.after hostOps0 (W0 m ρ c) (Proc.devRef .tc main_v15) = _
  after_results
  rfl

theorem W1_weights (c : Dev nD) : W1 m ρ c (Proc.devRef .tc main_v16) =
    transpose S128x128 [1, 0] (m ((c : Thread nD τ).loc main_arg2)) transposes_S128x128_S128x128_1_0 := by
  show StableHlo.after hostOps0 (W0 m ρ c) (Proc.devRef .tc main_v16) = _
  after_results

theorem W1_features (c : Dev nD) : W1 m ρ c (Proc.devRef .tc main_arg0) = m ((c : Thread nD τ).loc main_arg0) := by
  show StableHlo.after hostOps0 (W0 m ρ c) (Proc.devRef .tc main_arg0) = _
  after_results

/-! ## Between the regions -/

/-- The segment sum's three inputs are the first region's output array and the two endpoint lists. -/
theorem W3_agg (c : Dev nD) : W3 m ρ c (Proc.devRef .tc main_v27) =
    GcnLayer.aggK bcast_S_S1700000 bcast_S_S100000x128 bcast_S1700000_S1700000x1_0
      scatter_S100000x128_S1700000x1_S1700000x128_1_0_0_1 gather_S100000x128_S1700000x1_S1700000x128_1_0_n_n_0_1_1128
      (W2 m ρ c (Proc.devRef .tc main_v17)) (W2 m ρ c (Proc.devRef .tc main_v5)) (W2 m ρ c (Proc.devRef .tc main_v6)) := by
  show StableHlo.after hostOps1 (W2 m ρ c) (Proc.devRef .tc main_v27) = _
  after_results
  rfl

/-- The factor column is not written between the regions, and the first region only reads it. -/
theorem W3_factor (c : Dev nD) : W3 m ρ c (Proc.devRef .tc main_v15) = W1 m ρ c (Proc.devRef .tc main_v15) := by
  have h1 : W3 m ρ c (Proc.devRef .tc main_v15) = W2 m ρ c (Proc.devRef .tc main_v15) := by
    show StableHlo.after hostOps1 (W2 m ρ c) (Proc.devRef .tc main_v15) = _
    after_results
  exact h1.trans ((W2_arr m ρ c 2).trans (((dat0 (V1 m ρ) c).arrAt_in 2 rfl _).trans (A_eq0 (V1 m ρ) c 2)))

/-! ## The result -/

/-- The result buffer after the run, given the two regions' closed forms (`hR0`, `hR1`: what each region leaves in
    its output array, for any contents at its entry). -/
theorem W4_result
    (hR0 : ∀ (V : (c : Dev nD) → (b : Ref sig .tc) → Buf (Elt Ideal) ((c : Thread nD τ).loc b)) (c : Dev nD),
      (dat0 (F := Ideal) V c).arrAt 3 cfg0.N = GcnSpec.projScaled (V c main_arg0) (V c main_v16) (V c main_v15))
    (hR1 : ∀ (V : (c : Dev nD) → (b : Ref sig .tc) → Buf (Elt Ideal) ((c : Thread nD τ).loc b)) (c : Dev nD),
      (dat1 (F := Ideal) V c).arrAt 2 cfg1.N = GcnSpec.scaleRelu (V c main_v27) (V c main_v15))
    (c : Dev nD) :
    W4 m ρ c (Proc.devRef .tc main_v28) =
      GcnLayer.kernelOut bcast_S_S1700000 bcast_S_S100000 bcast_S_S100000x128 bcast_S1700000_S1700000x1_0
        shapeCasts_S100000_S100000x1 scatter_S100000_S1700000x1_S1700000_n_0_0_1
        scatter_S100000x128_S1700000x1_S1700000x128_1_0_0_1 gather_S100000x128_S1700000x1_S1700000x128_1_0_n_n_0_1_1128
        (m ((c : Thread nD τ).loc main_arg0))
        (transpose S128x128 [1, 0] (m ((c : Thread nD τ).loc main_arg2)) transposes_S128x128_S128x128_1_0)
        (rowOf (m ((c : Thread nD τ).loc main_arg1))) (colOf (m ((c : Thread nD τ).loc main_arg1))) := by
  have e17 : W2 m ρ c (Proc.devRef .tc main_v17) = GcnSpec.projScaled (m ((c : Thread nD τ).loc main_arg0))
      (transpose S128x128 [1, 0] (m ((c : Thread nD τ).loc main_arg2)) transposes_S128x128_S128x128_1_0)
      (GcnLayer.factorColK bcast_S_S1700000 bcast_S_S100000 bcast_S1700000_S1700000x1_0 shapeCasts_S100000_S100000x1
        scatter_S100000_S1700000x1_S1700000_n_0_0_1 (rowOf (m ((c : Thread nD τ).loc main_arg1)))) := by
    refine (W2_arr m ρ c 3).trans ((hR0 (V1 m ρ) c).trans ?_)
    show GcnSpec.projScaled (W1 m ρ c (Proc.devRef .tc main_arg0)) (W1 m ρ c (Proc.devRef .tc main_v16)) (W1 m ρ c (Proc.devRef .tc main_v15)) = _
    rw [W1_features, W1_weights, W1_factor]
  have e5 : W2 m ρ c (Proc.devRef .tc main_v5) = rowOf (m ((c : Thread nD τ).loc main_arg1)) :=
    (W2_of_ne m ρ c main_v5 (by decide)).trans (W1_row m ρ c)
  have e6 : W2 m ρ c (Proc.devRef .tc main_v6) = colOf (m ((c : Thread nD τ).loc main_arg1)) :=
    (W2_of_ne m ρ c main_v6 (by decide)).trans (W1_col m ρ c)
  refine (W4_arr m ρ c 2).trans ((hR1 (V3 m ρ) c).trans ?_)
  show GcnSpec.scaleRelu (W3 m ρ c (Proc.devRef .tc main_v27)) (W3 m ρ c (Proc.devRef .tc main_v15)) = _
  rw [W3_agg, W3_factor, W1_factor, e17, e5, e6]
  rfl

end Cert.KernelIdeal.HostValue

end
-- ==== Proof.RegionForms.lean ====
/-
  The two tiled passes of the layer in closed form.  Each pass walks twenty blocks of 5000 rows; the block a
  grid point writes back is the corresponding block of ONE function of the arrays the pass reads, and the twenty
  blocks cover every row, so after the pass the output array IS that function:

    pass 0 : row j of the input times the 128 x 128 matrix, each entry of the row scaled by the row's factor;
    pass 1 : entry (j, d) of the input scaled by the row's factor, then the larger of that and zero.

  Both statements hold for any contents of the buffers at the pass's entry, on the extended reals.
-/
import proofs.«123095_j1219770712715_2_alg».proof.Proof.Gen.KernelIdeal.Frame
import proofs.«123095_j1219770712715_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionForms

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## What one block's body computes, entry by entry -/

/-- A column of factors laid along every row: entry `(p, q)` of the broadcast is the column's entry at row `p`. -/
theorem broadcastTo_column_apply {α : Type} (x : S5000x1.Idx → α) (h : S5000x1.Broadcasts S5000x128)
    (p : Fin 5000) (q : Fin 128) : broadcastTo S5000x128 x h (ix2 p q) = x (ix2 p (0 : Fin 1)) :=
  broadcastTo_apply x h (ix2 p q) (ix2 p (0 : Fin 1)) (fun a => match a with
    | ⟨0, _⟩ => by show p.val = if (5000 : Nat) = 1 then 0 else p.val; rw [if_neg (by decide)]
    | ⟨1, _⟩ => by show (0 : Nat) = if (1 : Nat) = 1 then 0 else q.val; rw [if_pos rfl])

/-- The block product at an entry: row `p` of the left block against column `q` of the matrix. -/
theorem matmul_block_apply (a : FVec Ideal S5000x128 .bf16) (b : FVec Ideal S128x128 .bf16) (p : Fin 5000) (q : Fin 128) :
    matmul dot_S5000x128_S128x128_S5000x128_1_0_0_1_n_n none a b (constant S5000x128 .f32 0x00000000#32) (ix2 p q)
      = ∑ k : Fin 128, a (ix2 p k) * b (ix2 k q) := by
  show FloatOps.matmul dot_S5000x128_S128x128_S5000x128_1_0_0_1_n_n none a b (constant S5000x128 .f32 0x00000000#32) (ix2 p q) = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun x => Fin.ext (by
    match x with
    | ⟨0, _⟩ =>
      show (dot_S5000x128_S128x128_S5000x128_1_0_0_1_n_n.lhsIdx (ix2 p q) _ 0).val = p.val
      unfold DotDims.lhsIdx
      rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
      rfl
    | ⟨1, _⟩ => exact (dot_S5000x128_S128x128_S5000x128_1_0_0_1_n_n.lhsIdx_val_of_single rfl (ix2 p q) _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun x => Fin.ext (by
    match x with
    | ⟨0, _⟩ => exact (dot_S5000x128_S128x128_S5000x128_1_0_0_1_n_n.rhsIdx_val_of_single rfl (ix2 p q) _).trans hk
    | ⟨1, _⟩ =>
      show (dot_S5000x128_S128x128_S5000x128_1_0_0_1_n_n.rhsIdx (ix2 p q) _ 1).val = q.val
      unfold DotDims.rhsIdx
      rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
      rfl)
  rw [el, er]

/-- Pass 0's body at entry `(p, q)` of its block: the rounding to the narrower format and the same-shape casts are
    the identity on the extended reals; what is left is the row-by-matrix product scaled by the row's factor. -/
theorem k0_pay1_apply (x0 : Vec Ideal S5000x128 .f32) (x2 : Vec Ideal S128x128 .f32) (x6 : Vec Ideal S5000x1 .f32)
    (p : Fin 5000) (q : Fin 128) :
    k0_pay1 (F := Ideal) x0 x2 x6 (ix2 p q) = (∑ k : Fin 128, x0 (ix2 p k) * x2 (ix2 k q)) * x6 (ix2 p (0 : Fin 1)) := by
  unfold k0_pay1
  rw [mulf_apply]
  refine congrArg₂ (· * ·) ?_ ?_
  · refine (matmul_block_apply _ _ p q).trans ?_
    refine Finset.sum_congr rfl fun k _ => ?_
    rw [truncf_apply, truncf_apply, shapeCast_self]
  · refine (broadcastTo_column_apply _ _ p q).trans ?_
    rw [shapeCast_self]

/-- Pass 1's body at entry `(p, q)` of its block: the entry scaled by the row's factor, clamped below at zero. -/
theorem k1_pay1_apply (x0 : Vec Ideal S5000x128 .f32) (x2 : Vec Ideal S5000x1 .f32) (p : Fin 5000) (q : Fin 128) :
    k1_pay1 (F := Ideal) x0 x2 (ix2 p q) = max (x0 (ix2 p q) * x2 (ix2 p (0 : Fin 1))) 0 := by
  unfold k1_pay1
  rw [maximumf_apply, mulf_apply]
  refine congrArg₂ max (congrArg₂ (· * ·) ?_ ?_) ?_
  · rw [shapeCast_self]
  · refine (broadcastTo_column_apply _ _ p q).trans ?_
    rw [shapeCast_self]
  · show Ideal.ofBits .f32 0x00000000#32 = 0
    exact Ideal.ofBits_zero_f32

/-! ## The two functions at an index given by its row and column -/

/-- The first pass's function at the index of row `j`, column `d`. -/
theorem projScaled_apply (x : (⟨2, ![100000, 128]⟩ : Shape).Idx → EReal) (wt : (⟨2, ![128, 128]⟩ : Shape).Idx → EReal)
    (r : (⟨2, ![100000, 1]⟩ : Shape).Idx → EReal) (i : (⟨2, ![100000, 128]⟩ : Shape).Idx) (j : Fin 100000) (d : Fin 128)
    (h0 : (i 0).val = j.val) (h1 : (i 1).val = d.val) :
    GcnSpec.projScaled x wt r i = (∑ k : Fin 128, x (ix2 j k) * wt (ix2 k d)) * r (ix2 j (0 : Fin 1)) := by
  have e0 : (⟨(i 0).val, idx2_lt0 i⟩ : Fin 100000) = j := Fin.ext h0
  have e1 : (⟨(i 1).val, idx2_lt1 i⟩ : Fin 128) = d := Fin.ext h1
  unfold GcnSpec.projScaled
  rw [e0, e1]

/-- The second pass's function at the index of row `j`, column `d`. -/
theorem scaleRelu_apply (a : (⟨2, ![100000, 128]⟩ : Shape).Idx → EReal) (r : (⟨2, ![100000, 1]⟩ : Shape).Idx → EReal)
    (i : (⟨2, ![100000, 128]⟩ : Shape).Idx) (j : Fin 100000) (d : Fin 128)
    (h0 : (i 0).val = j.val) (h1 : (i 1).val = d.val) :
    GcnSpec.scaleRelu a r i = max (a (ix2 j d) * r (ix2 j (0 : Fin 1))) 0 := by
  have e0 : (⟨(i 0).val, idx2_lt0 i⟩ : Fin 100000) = j := Fin.ext h0
  have ei : i = ix2 j d := funext fun x => Fin.ext (by
    match x with
    | ⟨0, _⟩ => exact h0
    | ⟨1, _⟩ => exact h1)
  unfold GcnSpec.scaleRelu
  rw [e0, ei]

/-! ## Pass 0: twenty blocks of 5000 rows -/

section Passes
variable (V : (c : Dev nD) → (b : Ref sig .tc) → Buf (Elt Ideal) ((c : Thread nD τ).loc b))

theorem zero_offsets : (![0, 0] : Fin 2 → Nat) = fun _ => 0 := funext fun a => by fin_cases a <;> rfl

/-- The windows' index maps, decided over the twenty points: the row-blocked windows sit at block row `t`, column block
    0; the matrix window is the whole matrix at every point. -/
theorem index_maps0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What point `t` writes back is block `t` of the first pass's function of the arrays as the pass finds them. -/
theorem flushed0_eq (c : Dev nD) (t : Fin cfg0.N) :
    (dat0 (F := Ideal) V c).flushed 3 t
      = ((cfg0.win 3).blk t).view.read (Elt Ideal) (GcnSpec.projScaled (V c main_arg0) (V c main_v16) (V c main_v15)) := by
  show (cfg0.win 3).cut (grid0.coords t) ((dat0 V c).after 3 t) = _
  rw [after0_3]
  unfold out0_3
  rw [View.canon_unit_zero zero_offsets]
  simp only [View.ld_unit_zero (S := S5000x128) zero_offsets, View.ld_unit_zero (S := S128x128) zero_offsets,
    View.ld_unit_zero (S := S5000x1) zero_offsets]
  obtain ⟨e0, e1, e2, e3, e4, e5, e6, e7⟩ := index_maps0 t
  have ht : t.val < 20 := t.isLt
  funext y
  obtain ⟨p, q, rfl⟩ : ∃ (p : Fin 5000) (q : Fin 128), y = ix2 p q := ⟨y 0, y 1, eq_ix2 y⟩
  have hp : p.val < 5000 := p.isLt
  have hq : q.val < 128 := q.isLt
  show k0_pay1 (F := Ideal) (iblk0 V c 0 t) (iblk0 V c 1 t) (iblk0 V c 2 t) (ix2 p q)
    = GcnSpec.projScaled (V c main_arg0) (V c main_v16) (V c main_v15) (((cfg0.win 3).blk t).view.emb (ix2 p q))
  refine (k0_pay1_apply _ _ _ p q).trans ?_
  refine Eq.trans ?_ (projScaled_apply _ _ _ (((cfg0.win 3).blk t).view.emb (ix2 p q))
    (⟨t.val * 5000 + p.val, by omega⟩ : Fin 100000) q
    (by show win0_3.index t (0 : Fin 2) * 5000 + 1 * p.val = t.val * 5000 + p.val; omega)
    (by show win0_3.index t (1 : Fin 2) * 128 + 1 * q.val = q.val; omega)).symm
  have hb0 : ∀ k : Fin 128, iblk0 V c 0 t (ix2 p k) = V c main_arg0 (ix2 (⟨t.val * 5000 + p.val, by omega⟩ : Fin 100000) k) := fun k => by
    show V c main_arg0 (((cfg0.win 0).blk t).view.emb (ix2 p k)) = V c main_arg0 _
    refine congrArg _ (funext fun a => Fin.ext ?_)
    match a with
    | ⟨0, _⟩ => show win0_0.index t (0 : Fin 2) * 5000 + 1 * p.val = t.val * 5000 + p.val; omega
    | ⟨1, _⟩ => show win0_0.index t (1 : Fin 2) * 128 + 1 * k.val = k.val; omega
  have hb1 : ∀ k : Fin 128, iblk0 V c 1 t (ix2 k q) = V c main_v16 (ix2 k q) := fun k => by
    show V c main_v16 (((cfg0.win 1).blk t).view.emb (ix2 k q)) = V c main_v16 _
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * q.val = q.val; omega
  have hb2 : iblk0 V c 2 t (ix2 p (0 : Fin 1)) = V c main_v15 (ix2 (⟨t.val * 5000 + p.val, by omega⟩ : Fin 100000) (0 : Fin 1)) := by
    show V c main_v15 (((cfg0.win 2).blk t).view.emb (ix2 p (0 : Fin 1))) = V c main_v15 _
    refine congrArg _ (funext fun a => Fin.ext ?_)
    match a with
    | ⟨0, _⟩ => show win0_2.index t (0 : Fin 2) * 5000 + 1 * p.val = t.val * 5000 + p.val; omega
    | ⟨1, _⟩ => show win0_2.index t (1 : Fin 2) * 1 + 1 * (0 : Fin 1).val = (0 : Fin 1).val; omega
  rw [hb2]
  exact congrArg (· * _) (Finset.sum_congr rfl fun k _ => by rw [hb0 k, hb1 k])

/-- An index of the output array is in point `t`'s block iff each coordinate is in the block's range on its axis. -/
theorem mem_blk0 (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v17).slice (win0_3.rect t)).set ↔ _
  rw [View.set_slice_whole, Rect.mem_set_unit]
  exact Iff.rfl

/-- Every index is in some point's block: row `r` lies in block `r / 5000`, and a block spans all 128 columns. -/
theorem cover0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ : ∃ t : Fin cfg0.N, t.val = (i 0).val / 5000 :=
    ⟨⟨(i 0).val / 5000, by show (i 0).val / 5000 < 20; omega⟩, rfl⟩
  obtain ⟨e0, e1, e2, e3, e4, e5, e6, e7⟩ := index_maps0 t
  refine ⟨t, flush0_3 t, ?_⟩
  rw [mem_blk0]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 128 ≤ (i 1).val ∧ (i 1).val < win0_3.index t (1 : Fin 2) * 128 + 128
    omega

/-- THE OUTPUT ARRAY AFTER PASS 0 is the first pass's function of the arrays the pass reads, whatever the buffers held
    at its entry. -/
theorem region0_final (c : Dev nD) :
    (dat0 (F := Ideal) V c).arrAt 3 cfg0.N = GcnSpec.projScaled (V c main_arg0) (V c main_v16) (V c main_v15) :=
  (dat0 (F := Ideal) V c).arrAt_eq_of_cover 3 _ (fun t _ => flushed0_eq V c t) cover0

/-! ## Pass 1: twenty blocks of 5000 rows -/

/-- The windows' index maps, decided over the twenty points: every window sits at block row `t`, column block 0. -/
theorem index_maps1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the second pass's function of the arrays as the pass finds them. -/
theorem flushed1_eq (c : Dev nD) (t : Fin cfg1.N) :
    (dat1 (F := Ideal) V c).flushed 2 t
      = ((cfg1.win 2).blk t).view.read (Elt Ideal) (GcnSpec.scaleRelu (V c main_v27) (V c main_v15)) := by
  show (cfg1.win 2).cut (grid1.coords t) ((dat1 V c).after 2 t) = _
  rw [after1_2]
  unfold out1_2
  rw [View.canon_unit_zero zero_offsets]
  simp only [View.ld_unit_zero (S := S5000x128) zero_offsets, View.ld_unit_zero (S := S5000x1) zero_offsets]
  obtain ⟨e0, e1, e2, e3, e4, e5⟩ := index_maps1 t
  have ht : t.val < 20 := t.isLt
  funext y
  obtain ⟨p, q, rfl⟩ : ∃ (p : Fin 5000) (q : Fin 128), y = ix2 p q := ⟨y 0, y 1, eq_ix2 y⟩
  have hp : p.val < 5000 := p.isLt
  have hq : q.val < 128 := q.isLt
  show k1_pay1 (F := Ideal) (iblk1 V c 0 t) (iblk1 V c 1 t) (ix2 p q)
    = GcnSpec.scaleRelu (V c main_v27) (V c main_v15) (((cfg1.win 2).blk t).view.emb (ix2 p q))
  refine (k1_pay1_apply _ _ p q).trans ?_
  refine Eq.trans ?_ (scaleRelu_apply _ _ (((cfg1.win 2).blk t).view.emb (ix2 p q))
    (⟨t.val * 5000 + p.val, by omega⟩ : Fin 100000) q
    (by show win1_2.index t (0 : Fin 2) * 5000 + 1 * p.val = t.val * 5000 + p.val; omega)
    (by show win1_2.index t (1 : Fin 2) * 128 + 1 * q.val = q.val; omega)).symm
  have hb0 : iblk1 V c 0 t (ix2 p q) = V c main_v27 (ix2 (⟨t.val * 5000 + p.val, by omega⟩ : Fin 100000) q) := by
    show V c main_v27 (((cfg1.win 0).blk t).view.emb (ix2 p q)) = V c main_v27 _
    refine congrArg _ (funext fun a => Fin.ext ?_)
    match a with
    | ⟨0, _⟩ => show win1_0.index t (0 : Fin 2) * 5000 + 1 * p.val = t.val * 5000 + p.val; omega
    | ⟨1, _⟩ => show win1_0.index t (1 : Fin 2) * 128 + 1 * q.val = q.val; omega
  have hb1 : iblk1 V c 1 t (ix2 p (0 : Fin 1)) = V c main_v15 (ix2 (⟨t.val * 5000 + p.val, by omega⟩ : Fin 100000) (0 : Fin 1)) := by
    show V c main_v15 (((cfg1.win 1).blk t).view.emb (ix2 p (0 : Fin 1))) = V c main_v15 _
    refine congrArg _ (funext fun a => Fin.ext ?_)
    match a with
    | ⟨0, _⟩ => show win1_1.index t (0 : Fin 2) * 5000 + 1 * p.val = t.val * 5000 + p.val; omega
    | ⟨1, _⟩ => show win1_1.index t (1 : Fin 2) * 1 + 1 * (0 : Fin 1).val = (0 : Fin 1).val; omega
  rw [hb0, hb1]

/-- An index of the output array is in point `t`'s block iff each coordinate is in the block's range on its axis. -/
theorem mem_blk1 (t : Fin cfg1.N) (i : S100000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v28).slice (win1_2.rect t)).set ↔ _
  rw [View.set_slice_whole, Rect.mem_set_unit]
  exact Iff.rfl

/-- Every index is in some point's block: row `r` lies in block `r / 5000`, and a block spans all 128 columns. -/
theorem cover1 (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ : ∃ t : Fin cfg1.N, t.val = (i 0).val / 5000 :=
    ⟨⟨(i 0).val / 5000, by show (i 0).val / 5000 < 20; omega⟩, rfl⟩
  obtain ⟨e0, e1, e2, e3, e4, e5⟩ := index_maps1 t
  refine ⟨t, flush1_2 t, ?_⟩
  rw [mem_blk1]
  intro a
  match a with
  | ⟨0, _⟩ =>
    show win1_2.index t (0 : Fin 2) * 5000 ≤ (i 0).val ∧ (i 0).val < win1_2.index t (0 : Fin 2) * 5000 + 5000
    omega
  | ⟨1, _⟩ =>
    show win1_2.index t (1 : Fin 2) * 128 ≤ (i 1).val ∧ (i 1).val < win1_2.index t (1 : Fin 2) * 128 + 128
    omega

/-- THE OUTPUT ARRAY AFTER PASS 1 is the second pass's function of the arrays the pass reads, whatever the buffers held
    at its entry. -/
theorem region1_final (c : Dev nD) :
    (dat1 (F := Ideal) V c).arrAt 2 cfg1.N = GcnSpec.scaleRelu (V c main_v27) (V c main_v15) :=
  (dat1 (F := Ideal) V c).arrAt_eq_of_cover 2 _ (fun t _ => flushed1_eq V c t) cover1

end Passes

end Cert.KernelIdeal.RegionForms

end
-- ==== Proof.RefForm.lean ====
/-
  The idealized reference program's result, as the shared operation tree `GcnLayer.refOut` of the projected features
  and the edges' endpoint lists: the stages of the reference's run, composed, are that tree.
-/
import proofs.«123095_j1219770712715_2_alg».proof.Proof.Gen.ReferenceIdeal.Read
import proofs.«123095_j1219770712715_2_alg».proof.Proof.LayerDefs

set_option maxRecDepth 16384

noncomputable section

namespace Cert.ReferenceIdeal.RefForm

open Cert.ReferenceIdeal Cert.ReferenceIdeal.Gen Cert.ReferenceIdeal.Read Idealize.ShloMosaic Idealize.ShloMosaic.TcCoe Idealize.SL.Sem

/-- The reference's result stage is the edge-weighted segment sum of the projected features, clamped at zero. -/
theorem result_eq (x0 : S100000x128.Idx → EReal) (x1 : S2x1600000.Idx → BitVec 32) (x2 : S128x128.Idx → EReal) :
    val_main_v42 (F := Ideal) x0 x1 x2 =
      GcnLayer.refOut bcast_S_S1700000 bcast_S_S100000 bcast_S_S100000x128 bcast_S1700000_S1700000x1_0
        bcast_S1700000x1_S1700000x128_0_1 scatter_S100000_S1700000x1_S1700000_n_0_0_1
        scatter_S100000x128_S1700000x1_S1700000x128_1_0_0_1 gather_S100000_S1700000x1_S1700000_n_0_n_n_0_1_1
        gather_S100000x128_S1700000x1_S1700000x128_1_0_n_n_0_1_1128
        (val_main_v28 (F := Ideal) x0 x2) (val_main_v3 (F := Ideal) x1) (val_main_v6 (F := Ideal) x1) := rfl

end Cert.ReferenceIdeal.RefForm

end
-- ==== Proof.LibSegmentOps.lean ====
/-
  SEGMENT OPERATIONS READ AT ONE INDEX: what `x[idx]` (a gather of elements or of rows at a column of start indices)
  and a segment sum (a scatter with an `add` body at a column of scatter indices) compute at one index, stated once
  for any sizes.

  A gather of a vector `x : [N]` or of the rows of a matrix `x : [N, C]` at start indices `idx : [E, 1]` reads, at
  result position `e`, the operand at the start index `idx[e, 0]` taken as a signed integer and clamped into
  `[0, N − 1]` (`gather_vec_apply`, `gather_rows_apply`). A scatter at scatter indices `idx : [E, 1]` sends update
  `e` (or update `(e, c)`) to operand position `idx[e, 0]` (or `(idx[e, 0], c)`) exactly when that signed integer is a
  position of the operand, and drops it otherwise (`scatter_vec_target`, `scatter_rows_target`). A scatter whose body
  is the addition of a commutative monoid is, at each operand position, the operand's element plus the sum of the
  updates sent there (`scatter_add_apply`); with all updates `1` it counts them (`scatter_count`, `scatterAdd_ones`).
  Last, three small facts about words, extended reals and index sets used beside them.
-/
import Idealize.ShloMosaic.PureOps
import Idealize.ShloMosaic.Lib.ValueIdx
import Mathlib.Data.BitVec
import Mathlib.Data.EReal.Operations

noncomputable section

open scoped BigOperators

namespace SegmentOps

open Idealize.ShloMosaic Idealize.ShloMosaic.ValueIdx

/-! ## Kept axes -/

/-- An axis in the list is not among the axes kept outside it. -/
theorem not_mem_kept_of_mem {s : Shape} {axes : List (Fin s.rank)} {a : Fin s.rank} (h : a ∈ axes) :
    a ∉ s.kept axes := by
  simp [Shape.kept, h]

/-- An axis outside the list is among the axes kept outside it. -/
theorem mem_kept_of_not_mem {s : Shape} {axes : List (Fin s.rank)} {a : Fin s.rank} (h : a ∉ axes) :
    a ∈ s.kept axes := by
  simp [Shape.kept, h]

/-- Of two axes, axis 1 is not in the list holding axis 0 alone. -/
theorem one_not_mem_zero : (1 : Fin 2) ∉ ([0] : List (Fin 2)) := by decide

/-- Of two axes, axis 0 is not in the list holding axis 1 alone. -/
theorem zero_not_mem_one : (0 : Fin 2) ∉ ([1] : List (Fin 2)) := by decide

/-! ## Gathers at a column of start indices -/

section Gather
variable {α : Type}

/-- The dimension numbers of `x[idx]` for a vector `x : [N]` and start indices `idx : [E, 1]`: the operand's one axis
    is collapsed and indexed by the one component of each start index, the index vector lies on axis 1, every slice
    is one element; the result is `[E]`. -/
abbrev gatherVecDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the operand at the start index `idx[e, 0]`, read signed and clamped into
    `[0, N − 1]`. The start-indices position `(e, 0)` is given as any `k` whose first coordinate is `e` (its second
    coordinate ranges over one value). -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (y : (⟨1, ![E]⟩ : Shape).Idx)
    (k : (⟨2, ![E, 1]⟩ : Shape).Idx) (hk : (k 0).val = (y 0).val) :
    Host.gather (gatherVecDims N E wf) x idx y = x (ix1 ⟨min (idx k).toInt.toNat (N - 1), by omega⟩) := by
  unfold Host.gather
  congr 1
  funext a
  obtain rfl : a = 0 := Subsingleton.elim _ _
  refine Fin.ext ?_
  show (gatherVecDims N E wf).start y idx 0 + (gatherVecDims N E wf).batchCoord y 0
    + (gatherVecDims N E wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gatherVecDims N E wf).startIndexMap from List.mem_singleton.mpr rfl)]
  have hsi : (gatherVecDims N E wf).siIdx y ⟨List.idxOf (0 : Fin 1) (gatherVecDims N E wf).startIndexMap,
      List.idxOf_lt_length_iff.2 (List.mem_singleton.mpr rfl)⟩ = k := by
    funext b; refine Fin.ext ?_
    match b with
    | ⟨0, _⟩ => exact hk.symm
    | ⟨1, _⟩ =>
      have h1 := idx2_lt1 k
      show (0 : Nat) = (k 1).val
      omega
  rw [hsi]
  rfl

/-- The dimension numbers of `x[idx]` for a matrix `x : [N, C]` and start indices `idx : [E, 1]` (a gather of rows):
    the row axis is collapsed and indexed by the one component of each start index, the column axis is the result's
    offset axis 1 with whole-row slices `[1, C]`, the index vector lies on axis 1; the result is `[E, C]`. -/
abbrev gatherRowsDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: column `c` of the operand's row at the start index `idx[e, 0]`, read signed and
    clamped into `[0, N − 1]`. The start-indices position `(e, 0)` is given as any `k` whose first coordinate is `e`. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (y : (⟨2, ![E, C]⟩ : Shape).Idx)
    (k : (⟨2, ![E, 1]⟩ : Shape).Idx) (hk : (k 0).val = (y 0).val) :
    Host.gather (gatherRowsDims N E C wf) x idx y
      = x (ix2 (⟨min (idx k).toInt.toNat (N - 1), by omega⟩ : Fin N) (⟨(y 1).val, idx2_lt1 y⟩ : Fin C)) := by
  unfold Host.gather
  congr 1
  funext a
  refine Fin.ext ?_
  match a with
  | ⟨0, _⟩ =>
    show (gatherRowsDims N E C wf).start y idx 0 + (gatherRowsDims N E C wf).batchCoord y 0
      + (gatherRowsDims N E C wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherRowsDims N E C wf).startIndexMap from List.mem_singleton.mpr rfl)]
    have hsi : (gatherRowsDims N E C wf).siIdx y ⟨List.idxOf (0 : Fin 2) (gatherRowsDims N E C wf).startIndexMap,
        List.idxOf_lt_length_iff.2 (List.mem_singleton.mpr rfl)⟩ = k := by
      funext b; refine Fin.ext ?_
      match b with
      | ⟨0, _⟩ => exact hk.symm
      | ⟨1, _⟩ =>
        have h1 := idx2_lt1 k
        show (0 : Nat) = (k 1).val
        omega
    rw [hsi]
    rfl
  | ⟨1, _⟩ =>
    show (gatherRowsDims N E C wf).start y idx 1 + (gatherRowsDims N E C wf).batchCoord y 1
      + (gatherRowsDims N E C wf).offCoord y 1 = (y 1).val
    have hs : (gatherRowsDims N E C wf).start y idx 1 = 0 := by
      unfold GatherDims.start
      rw [dif_neg (show (1 : Fin 2) ∉ (gatherRowsDims N E C wf).startIndexMap from one_not_mem_zero)]
    have hmem : (1 : Fin 2) ∈ (gatherRowsDims N E C wf).sKept :=
      (GatherDims.mem_sKept _ _).mpr ⟨one_not_mem_zero, List.not_mem_nil⟩
    rw [hs, GatherDims.batchCoord_eq_zero _ _ _ List.not_mem_nil]
    unfold GatherDims.offCoord
    rw [dif_pos hmem]
    simp only [Nat.zero_add]
    rfl

end Gather

/-! ## Scatters at a column of scatter indices: where an update lands -/

section ScatterTarget

/-- The dimension numbers of `x.at[idx].add(v)` for a vector `x : [N]`, scatter indices `idx : [E, 1]` and updates
    `v : [E]`: no window axes, the operand's one axis inserted and indexed by the one component of each scatter
    index, the index vector on axis 1. -/
abbrev scatterVecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- WHERE UPDATE `e` OF A VECTOR SCATTER LANDS: at operand position `i` exactly when the scatter index `idx[e, 0]`,
    read signed, is `i` (an index that is negative or not below `N` is no position: the update is dropped). -/
theorem scatter_vec_target {N E w : Nat} (wf : ScatterDims.WF ⟨1, ![N]⟩ ⟨2, ![E, 1]⟩ ⟨1, ![E]⟩ [] [0] [0] 1)
    (idx : IVec ⟨2, ![E, 1]⟩ w) (y : (⟨1, ![E]⟩ : Shape).Idx)
    (k : (⟨2, ![E, 1]⟩ : Shape).Idx) (hk : (k 0).val = (y 0).val) (i : (⟨1, ![N]⟩ : Shape).Idx) :
    (scatterVecDims N E wf).resultIdx? y idx = some i ↔ (idx k).toInt = ((i 0).val : Int) := by
  have hst : ∀ a, (scatterVecDims N E wf).start y idx a = (idx k).toInt := by
    intro a
    obtain rfl : a = 0 := Subsingleton.elim _ _
    unfold ScatterDims.start
    rw [dif_pos (show (0 : Fin 1) ∈ (scatterVecDims N E wf).scatterDimsToOperandDims from List.mem_singleton.mpr rfl)]
    have hsi : (scatterVecDims N E wf).siIdx y ⟨List.idxOf (0 : Fin 1) (scatterVecDims N E wf).scatterDimsToOperandDims,
        List.idxOf_lt_length_iff.2 (List.mem_singleton.mpr rfl)⟩ = k := by
      funext b; refine Fin.ext ?_
      match b with
      | ⟨0, _⟩ => exact hk.symm
      | ⟨1, _⟩ =>
        have h1 := idx2_lt1 k
        show (0 : Nat) = (k 1).val
        omega
    rw [hsi]
  have hw : ∀ a, (scatterVecDims N E wf).window y a = 0 := by
    intro a
    obtain rfl : a = 0 := Subsingleton.elim _ _
    unfold ScatterDims.window
    rw [dif_neg (show (0 : Fin 1) ∉ (scatterVecDims N E wf).sKept from not_mem_kept_of_mem (List.mem_singleton.mpr rfl))]
  have hi : (i 0).val < N := (i 0).isLt
  unfold ScatterDims.resultIdx?
  constructor
  · intro h
    split at h
    · rename_i hc
      have h0 : ((scatterVecDims N E wf).start y idx 0 + (scatterVecDims N E wf).window y 0).toNat = (i 0).val :=
        congrArg (fun f : (⟨1, ![N]⟩ : Shape).Idx => (f 0).val) (Option.some.inj h)
      have hc0 := hc 0
      rw [hst, hw] at hc0 h0
      omega
    · exact absurd h (by simp)
  · intro h
    have hc : ∀ a, 0 ≤ (scatterVecDims N E wf).start y idx a + (scatterVecDims N E wf).window y a ∧
        (scatterVecDims N E wf).start y idx a + (scatterVecDims N E wf).window y a
          < ((⟨1, ![N]⟩ : Shape).size a : Int) := by
      intro a
      obtain rfl : a = 0 := Subsingleton.elim _ _
      rw [hst, hw]
      show 0 ≤ (idx k).toInt + ((0 : Nat) : Int) ∧ (idx k).toInt + ((0 : Nat) : Int) < (N : Int)
      omega
    rw [dif_pos hc]
    congr 1
    funext a
    obtain rfl : a = 0 := Subsingleton.elim _ _
    refine Fin.ext ?_
    show ((scatterVecDims N E wf).start y idx 0 + (scatterVecDims N E wf).window y 0).toNat = (i 0).val
    rw [hst, hw]
    omega

/-- The dimension numbers of `x.at[idx].add(v)` for a matrix `x : [N, C]`, scatter indices `idx : [E, 1]` and updates
    `v : [E, C]` (a scatter of rows): the updates' column axis 1 is the window axis and goes to the operand's column
    axis, the operand's row axis is inserted and indexed by the one component of each scatter index, the index vector
    on axis 1. -/
abbrev scatterRowsDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- WHERE UPDATE `(e, c)` OF A ROW SCATTER LANDS: at operand position `i` exactly when the scatter index `idx[e, 0]`,
    read signed, is `i`'s row and `c` is `i`'s column (a row index that is negative or not below `N` is no row: the
    update is dropped). -/
theorem scatter_rows_target {N E C w : Nat}
    (wf : ScatterDims.WF ⟨2, ![N, C]⟩ ⟨2, ![E, 1]⟩ ⟨2, ![E, C]⟩ [1] [0] [0] 1)
    (idx : IVec ⟨2, ![E, 1]⟩ w) (y : (⟨2, ![E, C]⟩ : Shape).Idx)
    (k : (⟨2, ![E, 1]⟩ : Shape).Idx) (hk : (k 0).val = (y 0).val) (i : (⟨2, ![N, C]⟩ : Shape).Idx) :
    (scatterRowsDims N E C wf).resultIdx? y idx = some i
      ↔ ((idx k).toInt = ((i 0).val : Int) ∧ (y 1).val = (i 1).val) := by
  have hst0 : (scatterRowsDims N E C wf).start y idx 0 = (idx k).toInt := by
    unfold ScatterDims.start
    rw [dif_pos (show (0 : Fin 2) ∈ (scatterRowsDims N E C wf).scatterDimsToOperandDims from
      List.mem_singleton.mpr rfl)]
    have hsi : (scatterRowsDims N E C wf).siIdx y
        ⟨List.idxOf (0 : Fin 2) (scatterRowsDims N E C wf).scatterDimsToOperandDims,
          List.idxOf_lt_length_iff.2 (List.mem_singleton.mpr rfl)⟩ = k := by
      funext b; refine Fin.ext ?_
      match b with
      | ⟨0, _⟩ => exact hk.symm
      | ⟨1, _⟩ =>
        have h1 := idx2_lt1 k
        show (0 : Nat) = (k 1).val
        omega
    rw [hsi]
  have hst1 : (scatterRowsDims N E C wf).start y idx 1 = 0 := by
    unfold ScatterDims.start
    rw [dif_neg (show (1 : Fin 2) ∉ (scatterRowsDims N E C wf).scatterDimsToOperandDims from one_not_mem_zero)]
  have hw0 : (scatterRowsDims N E C wf).window y 0 = 0 := by
    unfold ScatterDims.window
    rw [dif_neg (show (0 : Fin 2) ∉ (scatterRowsDims N E C wf).sKept from
      not_mem_kept_of_mem (List.mem_singleton.mpr rfl))]
  have hw1 : (scatterRowsDims N E C wf).window y 1 = (y 1).val := by
    unfold ScatterDims.window
    rw [dif_pos (show (1 : Fin 2) ∈ (scatterRowsDims N E C wf).sKept from mem_kept_of_not_mem one_not_mem_zero)]
    rfl
  have hi0 : (i 0).val < N := idx2_lt0 i
  have hi1 : (i 1).val < C := idx2_lt1 i
  have hy1 : (y 1).val < C := idx2_lt1 y
  unfold ScatterDims.resultIdx?
  constructor
  · intro h
    split at h
    · rename_i hc
      have h0 : ((scatterRowsDims N E C wf).start y idx 0 + (scatterRowsDims N E C wf).window y 0).toNat
          = (i 0).val :=
        congrArg (fun f : (⟨2, ![N, C]⟩ : Shape).Idx => (f 0).val) (Option.some.inj h)
      have h1 : ((scatterRowsDims N E C wf).start y idx 1 + (scatterRowsDims N E C wf).window y 1).toNat
          = (i 1).val :=
        congrArg (fun f : (⟨2, ![N, C]⟩ : Shape).Idx => (f 1).val) (Option.some.inj h)
      have hc0 := hc 0
      rw [hst0, hw0] at hc0 h0
      rw [hst1, hw1] at h1
      omega
    · exact absurd h (by simp)
  · rintro ⟨h, h'⟩
    have hc : ∀ a, 0 ≤ (scatterRowsDims N E C wf).start y idx a + (scatterRowsDims N E C wf).window y a ∧
        (scatterRowsDims N E C wf).start y idx a + (scatterRowsDims N E C wf).window y a
          < ((⟨2, ![N, C]⟩ : Shape).size a : Int) := by
      intro a
      match a with
      | ⟨0, _⟩ =>
        show 0 ≤ (scatterRowsDims N E C wf).start y idx 0 + (scatterRowsDims N E C wf).window y 0 ∧
          (scatterRowsDims N E C wf).start y idx 0 + (scatterRowsDims N E C wf).window y 0 < (N : Int)
        rw [hst0, hw0]
        omega
      | ⟨1, _⟩ =>
        show 0 ≤ (scatterRowsDims N E C wf).start y idx 1 + (scatterRowsDims N E C wf).window y 1 ∧
          (scatterRowsDims N E C wf).start y idx 1 + (scatterRowsDims N E C wf).window y 1 < (C : Int)
        rw [hst1, hw1]
        omega
    rw [dif_pos hc]
    congr 1
    funext a
    refine Fin.ext ?_
    match a with
    | ⟨0, _⟩ =>
      show ((scatterRowsDims N E C wf).start y idx 0 + (scatterRowsDims N E C wf).window y 0).toNat = (i 0).val
      rw [hst0, hw0]
      omega
    | ⟨1, _⟩ =>
      show ((scatterRowsDims N E C wf).start y idx 1 + (scatterRowsDims N E C wf).window y 1).toNat = (i 1).val
      rw [hst1, hw1]
      omega

end ScatterTarget

/-! ## A scatter that adds: the operand's element plus the sum of the updates that land on it -/

section ScatterAdd

/-- The scatter's fold over any list of update positions, read at operand position `i`: the starting element plus the
    sum, over the list, of the updates whose target is `i`. By induction on the list: one step changes the element at
    `i` exactly when its update lands on `i`, adding that update. -/
theorem foldl_scatter_add_apply {α : Type} [AddCommMonoid α] {s si u : Shape} {w : Nat} (d : ScatterDims s si u)
    (idx : IVec si w) (upd : u.Idx → α) (i : s.Idx) (l : List (Fin u.numel)) (x : s.Idx → α) :
    (l.foldl (fun r n =>
        match d.resultIdx? (u.rowMajor.symm n) idx with
        | some i => fun i' => if i' = i then r i + upd (u.rowMajor.symm n) else r i'
        | none => r) x) i
      = x i + (l.map fun n =>
          if d.resultIdx? (u.rowMajor.symm n) idx = some i then upd (u.rowMajor.symm n) else 0).sum := by
  induction l generalizing x with
  | nil => simp
  | cons n l ih =>
    rw [List.foldl_cons, ih, List.map_cons, List.sum_cons, ← add_assoc]
    congr 1
    rcases hres : d.resultIdx? (u.rowMajor.symm n) idx with _ | i'
    · simp
    · by_cases hii : i = i'
      · subst hii; simp
      · simp [hii, Ne.symm hii]

/-- A SCATTER WITH AN ADDING BODY READ AT `i`: the operand's element plus the sum of the updates whose target is `i`
    (updates landing outside the operand contribute nothing). The fold over the row-major list of update positions is
    the sum over that list, a sum over the positions `Fin u.numel`, re-indexed by the row-major bijection to the
    updates' index set. In a commutative monoid the order of the updates does not matter. -/
theorem scatter_add_apply {α : Type} [AddCommMonoid α] {s si u : Shape} {w : Nat} (d : ScatterDims s si u)
    (x : s.Idx → α) (idx : IVec si w) (upd : u.Idx → α) (i : s.Idx) :
    Host.scatter d (fun a b => a + b) x idx upd i
      = x i + ∑ j ∈ Finset.univ.filter (fun j => d.resultIdx? j idx = some i), upd j := by
  unfold Host.scatter
  refine (foldl_scatter_add_apply d idx upd i (List.finRange u.numel) x).trans ?_
  congr 1
  rw [Finset.sum_filter,
    ← Equiv.sum_comp u.rowMajor.symm (fun j => if d.resultIdx? j idx = some i then upd j else 0),
    Fin.sum_univ_def]

/-- The same for words: the integer addition of `arith.addi` is the addition of the words' commutative ring. -/
theorem scatter_addi_apply {m : Nat} {s si u : Shape} {w : Nat} (d : ScatterDims s si u)
    (x : s.Idx → BitVec m) (idx : IVec si w) (upd : u.Idx → BitVec m) (i : s.Idx) :
    Host.scatter d IntOp.addi x idx upd i
      = x i + ∑ j ∈ Finset.univ.filter (fun j => d.resultIdx? j idx = some i), upd j :=
  scatter_add_apply d x idx upd i

/-- COUNTING BY A WORD SCATTER: adding the word `1` for every update into zeros leaves, at `i`, the number of updates
    whose target is `i`, as a 32-bit word. -/
theorem scatter_count {s si u : Shape} {w : Nat} (d : ScatterDims s si u) (idx : IVec si w) (i : s.Idx) :
    Host.scatter d IntOp.addi (fun _ => (0#32 : BitVec 32)) idx (fun _ => 1#32) i
      = BitVec.ofNat 32 (Finset.univ.filter (fun j : u.Idx => d.resultIdx? j idx = some i)).card := by
  rw [scatter_addi_apply, Finset.sum_const, nsmul_eq_mul]
  simp [BitVec.natCast_eq_ofNat]

/-- COUNTING BY AN EXTENDED-REAL SCATTER: adding `1` for every update into zeros leaves, at `i`, the number of updates
    whose target is `i`, as a real number. -/
theorem scatterAdd_ones {s si u : Shape} {w : Nat} (d : ScatterDims s si u) (idx : IVec si w) (i : s.Idx) :
    Ideal.hostScatterAdd d (fun _ => (0 : EReal)) idx (fun _ => (1 : EReal)) i
      = (((Finset.univ.filter (fun j : u.Idx => d.resultIdx? j idx = some i)).card : ℝ) : EReal) := by
  unfold Ideal.hostScatterAdd
  rw [Finset.sum_const, nsmul_one, zero_add, EReal.coe_natCast]

end ScatterAdd

/-! ## Words, extended reals, index sets -/

/-- A natural number below `2 ^ 31`, as a 32-bit word, reads back as itself when the word is read signed. -/
theorem toInt_ofNat_of_lt (n : Nat) (h : n < 2 ^ 31) : (BitVec.ofNat 32 n).toInt = (n : Int) := by
  have hm : n % 2 ^ 32 = n := Nat.mod_eq_of_lt (by omega)
  unfold BitVec.toInt
  rw [BitVec.toNat_ofNat, hm]
  split <;> omega

/-- A nonnegative real factor distributes over a finite sum of extended reals, whatever the terms: it is
    nonnegative and not `⊤`, so it distributes over each sum of two extended reals. -/
theorem mul_sum_of_nonneg_real {ι : Type} (s : Finset ι) (c : ℝ) (hc : 0 ≤ c) (f : ι → EReal) :
    (c : EReal) * ∑ j ∈ s, f j = ∑ j ∈ s, (c : EReal) * f j := by
  classical
  induction s using Finset.induction_on with
  | empty => simp
  | insert a s ha ih =>
    rw [Finset.sum_insert ha, Finset.sum_insert ha,
      EReal.left_distrib_of_nonneg_of_ne_top (EReal.coe_nonneg.mpr hc) (EReal.coe_ne_top c), ih]

/-- A set of indices of a shape cut out by a condition has at most as many elements as the shape. -/
theorem card_idx_filter_le {u : Shape} (p : u.Idx → Prop) [DecidablePred p] :
    (Finset.univ.filter p).card ≤ u.numel :=
  (Finset.card_filter_le _ _).trans (by rw [Finset.card_univ, Shape.card_idx])

/-! ## The update positions that land on one element

The set is named once; the counting and summing facts above are restated over it. -/

section Targets
variable {s si u : Shape} {w : Nat}

/-- The update positions whose result index is `i`. -/
def targets (d : ScatterDims s si u) (idx : IVec si w) (i : s.Idx) : Finset u.Idx :=
  Finset.univ.filter (fun j : u.Idx => d.resultIdx? j idx = some i)

theorem mem_targets (d : ScatterDims s si u) (idx : IVec si w) (i : s.Idx) (j : u.Idx) :
    j ∈ targets d idx i ↔ d.resultIdx? j idx = some i := by
  unfold targets; rw [Finset.mem_filter]; exact ⟨fun h => h.2, fun h => ⟨Finset.mem_univ _, h⟩⟩

/-- Adding ones in 32-bit integers counts the positions that land on `i`. -/
theorem scatter_count_targets (d : ScatterDims s si u) (idx : IVec si w) (i : s.Idx) :
    Host.scatter d IntOp.addi (fun _ => (0#32 : BitVec 32)) idx (fun _ => 1#32) i
      = BitVec.ofNat 32 (targets d idx i).card := scatter_count d idx i

/-- Adding ones on the extended reals counts them too. -/
theorem scatterAdd_ones_targets (d : ScatterDims s si u) (idx : IVec si w) (i : s.Idx) :
    Ideal.hostScatterAdd d (fun _ => (0 : EReal)) idx (fun _ => (1 : EReal)) i
      = (((targets d idx i).card : ℝ) : EReal) := scatterAdd_ones d idx i

/-- The accumulating scatter on the extended reals at `i`: the operand's element plus the updates that land there. -/
theorem hostScatterAdd_targets (d : ScatterDims s si u) (x : s.Idx → EReal) (idx : IVec si w) (upd : u.Idx → EReal)
    (i : s.Idx) : Ideal.hostScatterAdd d x idx upd i = x i + ∑ j ∈ targets d idx i, upd j := rfl

/-- The same two facts for the host operation as programs spell it. -/
theorem Host_scatterAdd_targets (d : ScatterDims s si u) (x : s.Idx → EReal) (idx : IVec si w) (upd : u.Idx → EReal)
    (i : s.Idx) :
    Host.scatterAdd (F := Ideal) (φ := .f32) d x idx upd i = x i + ∑ j ∈ targets d idx i, upd j := rfl

theorem Host_scatterAdd_ones_targets (d : ScatterDims s si u) (idx : IVec si w) (i : s.Idx) :
    Host.scatterAdd (F := Ideal) (φ := .f32) d (fun _ => (0 : EReal)) idx (fun _ => (1 : EReal)) i
      = (((targets d idx i).card : ℝ) : EReal) := scatterAdd_ones d idx i

theorem card_targets_le (d : ScatterDims s si u) (idx : IVec si w) (i : s.Idx) : (targets d idx i).card ≤ u.numel :=
  card_idx_filter_le _

end Targets

end SegmentOps

end
-- ==== Proof.LibColumnCast.lean ====
/-
  Columns of a matrix as flat vectors, read at an index.

  A matrix with a single column holds the same numbers as the flat vector of its rows: in row-major order entry
  (r, 0) of an n-by-1 matrix sits at position r * 1 + 0 = r, which is position r of a vector of length n. So
  reshaping between the two shapes moves no number: the vector's entry r is the matrix's entry (r, 0), in both
  directions. Cutting column c out of an n-by-2 matrix and flattening it therefore reads, at r, the matrix at (r, c).

  General in the number of rows and in the type of the entries.
-/
import Idealize.ShloMosaic.Lib.Pipeline.Value
import Idealize.ShloMosaic.Lib.ValueIdx
import Idealize.ShloMosaic.Lib.ValueLayout

noncomputable section

namespace Idealize.ShloMosaic.ColumnCast

open Idealize.ShloMosaic Idealize.ShloMosaic.ValueIdx

variable {α : Type} {n : Nat}

/-- FLATTENING a one-column matrix: entry r of the vector is entry (r, 0) of the matrix (same row-major position). -/
theorem flatten_column_apply (v : (⟨2, ![n, 1]⟩ : Shape).Idx → α)
    (h : (⟨2, ![n, 1]⟩ : Shape).ShapeCasts ⟨1, ![n]⟩) (r : Fin n) :
    shapeCast ⟨1, ![n]⟩ v h (ix1 r) = v (ix2 r (0 : Fin 1)) :=
  shapeCast_apply v h (ix1 r) (ix2 r (0 : Fin 1))
    (by rw [Shape.rowMajor_val_two, Shape.rowMajor_val_one]; show r.val * 1 + 0 = r.val; omega)

/-- STANDING a vector up as a one-column matrix: the matrix's entry in row r (its only column) is entry r of the
    vector. Stated at any index y of the matrix whose row is r. -/
theorem stand_column_apply (v : (⟨1, ![n]⟩ : Shape).Idx → α)
    (h : (⟨1, ![n]⟩ : Shape).ShapeCasts ⟨2, ![n, 1]⟩) (y : (⟨2, ![n, 1]⟩ : Shape).Idx) (r : Fin n)
    (hy : (y 0).val = r.val) :
    shapeCast ⟨2, ![n, 1]⟩ v h y = v (ix1 r) :=
  shapeCast_apply v h y (ix1 r)
    (by
      rw [Shape.rowMajor_val_two, Shape.rowMajor_val_one]
      have h1 : (y 1).val < 1 := (y 1).isLt
      show r.val = (y 0).val * 1 + (y 1).val
      omega)

/-- COLUMN c of an n-by-2 matrix, cut out as a one-column matrix starting at column o = c and flattened, reads at
    r the matrix's entry (r, c). -/
theorem flat_column_apply (o : Nat) (X : (⟨2, ![n, 2]⟩ : Shape).Idx → α)
    (h : (⟨2, ![n, 2]⟩ : Shape).Slices ![0, o] ⟨2, ![n, 1]⟩)
    (h' : (⟨2, ![n, 1]⟩ : Shape).ShapeCasts ⟨1, ![n]⟩) (r : Fin n) (c : Fin 2) (hc : c.val = o) :
    shapeCast ⟨1, ![n]⟩ (extractStridedSlice ⟨2, ![n, 1]⟩ ![0, o] X h) h' (ix1 r) = X (ix2 r c) :=
  (flatten_column_apply _ h' r).trans
    (slice2_axis1_apply o X h r (0 : Fin 1) c (by rw [hc]; rfl))

end Idealize.ShloMosaic.ColumnCast

end
-- ==== Proof.Layer.lean ====
/-
  The two ways of computing the layer agree, index by index, on the extended reals.

  Fix a node i and a feature d. Let T be the set of edges whose `row` endpoint is i; it holds the node's self loop,
  so its size, the degree, is at least one, and the node's factor r(i) = 1 / sqrt (degree) is a non-negative real
  number, the same in both programs: one counts the degree in integers and converts, the other sums ones.
  For an edge in T with `col` endpoint c, one program adds h(c, d) · r(c) and multiplies the total by r(i); the
  other adds (r(i) · r(c)) · h(c, d). Multiplying by a non-negative real number distributes over a finite sum of
  extended reals, whatever the summands, so the two totals are equal; no finiteness of the features is needed.
-/
import Idealize.ShloMosaic.PureOps
import Idealize.ShloMosaic.Lib.Pipeline.Value
import Idealize.ShloMosaic.Lib.ValueIdx
import Idealize.ShloMosaic.Lib.ValueLayout
import Idealize.ShloMosaic.PureOps.Ideal.Laws
import proofs.«123095_j1219770712715_2_alg».proof.Proof.LayerDefs
import proofs.«123095_j1219770712715_2_alg».proof.Proof.LibSegmentOps
import proofs.«123095_j1219770712715_2_alg».proof.Proof.LibColumnCast

noncomputable section

namespace GcnLayer

open Idealize.ShloMosaic Idealize.ShloMosaic.ValueIdx

/-! ## Small reads -/

/-- A scalar broadcast to any shape reads the scalar everywhere. -/
theorem bcast_scalar {α : Type} {t : Shape} (h : S0.BroadcastsInDim t (![] : Fin 0 → Fin t.rank)) (x : S0.Idx → α)
    (j : t.Idx) : broadcastInDim t ![] h x j = x ix0 :=
  broadcastInDim_apply _ h x j ix0 (fun a => a.elim0)

/-- The float word of one is the number one. -/
theorem one_word : Ideal.ofBits .f32 0x3F800000#32 = 1 := by
  simp [Ideal.ofBits, Ideal.ieee, -EReal.coe_mul]; norm_num

/-- Scaling by a non-negative real number commutes with a finite sum started at zero, each term regrouped:
    (0 + Σ h·c) · r = 0 + Σ (r·c)·h. -/
theorem scaled_sum {ι : Type} (T : Finset ι) (r : ℝ) (hr : 0 ≤ r) (h c : ι → EReal) :
    (0 + ∑ j ∈ T, h j * c j) * (r : EReal) = 0 + ∑ j ∈ T, ((r : EReal) * c j) * h j := by
  rw [zero_add, zero_add, mul_comm, SegmentOps.mul_sum_of_nonneg_real T r hr]
  refine Finset.sum_congr rfl fun j _ => ?_
  rw [mul_comm (h j) (c j), mul_assoc]

section
variable (bE : S0.BroadcastsInDim SE (![] : Fin 0 → Fin SE.rank))
  (bN : S0.BroadcastsInDim SN (![] : Fin 0 → Fin SN.rank))
  (bND : S0.BroadcastsInDim SND (![] : Fin 0 → Fin SND.rank))
  (bE1 : SE.BroadcastsInDim SE1 (![0] : Fin 1 → Fin SE1.rank))
  (bED : SE1.BroadcastsInDim SED (![0, 1] : Fin 2 → Fin SED.rank))
  (cN1 : SN.ShapeCasts SN1)
  (wf1 : ScatterDims.WF SN SE1 SE [] [0] [0] 1) (wf2 : ScatterDims.WF SND SE1 SED [1] [0] [0] 1)
  (wg1 : GatherDims.WF SN SE1 SE [] [0] [] [0] [] 1 ![1]) (wg2 : GatherDims.WF SND SE1 SED [1] [0] [] [0] [] 1 ![1, 128])

local notation "d1" => SegmentOps.scatterVecDims 100000 1700000 wf1
local notation "d2" => SegmentOps.scatterRowsDims 100000 1700000 128 wf2
local notation "g1" => SegmentOps.gatherVecDims 100000 1700000 wg1
local notation "g2" => SegmentOps.gatherRowsDims 100000 1700000 128 wg2

/-- The column of positions reads, in row e, the word of edge e. -/
theorem asColumn_apply (v : SE.Idx → BitVec 32) (k : SE1.Idx) :
    asColumn bE1 v k = v (ix1 (⟨(k 0).val, idx2_lt0 k⟩ : Fin 1700000)) := by
  unfold asColumn
  refine broadcastInDim_apply _ bE1 v k _ (fun a => ?_)
  match a with
  | ⟨0, _⟩ => rw [if_neg (by decide +revert)]; rfl

/-- A word that reads as a non-negative number is left as it is by the wrap-around of negative indices. -/
theorem wrapIdx_of_nonneg (v : SE.Idx → BitVec 32) (e : SE.Idx) (h : 0 ≤ (v e).toInt) : wrapIdx bE v e = v e := by
  unfold wrapIdx
  rw [select_apply]
  have hc : cmpi .slt v (broadcastInDim SE ![] bE (constantI S0 32 0#32)) e = 0#1 := by
    show IntOp.cmpi .slt (v e) (broadcastInDim SE ![] bE (constantI S0 32 0#32) e) = 0#1
    rw [bcast_scalar, constantI_apply]
    unfold IntOp.cmpi
    have : (v e).slt 0#32 = false := by
      rw [BitVec.slt]; simpa using h
    rw [this]; rfl
  rw [hc]
  exact select_zero _ _

/-- The node an endpoint word names once read signed and clamped into the node range. -/
def nodeOf (w : BitVec 32) : Fin 100000 := ⟨min w.toInt.toNat (100000 - 1), by omega⟩

theorem nodeOf_of_toInt (w : BitVec 32) (a : Fin 100000) (h : w.toInt = (a.val : Int)) : nodeOf w = a := by
  unfold nodeOf
  apply Fin.ext
  show min w.toInt.toNat (100000 - 1) = a.val
  rw [h]
  have := a.isLt
  simp only [Int.toNat_natCast]
  omega

/-- Rows gathered at the edges' endpoint words: update position (e, d) reads row `nodeOf` of edge e's word, column d. -/
theorem gather_rows_node {α : Type} (hs : SND.Idx → α) (v : SE.Idx → BitVec 32) (j : SED.Idx) :
    Host.gather (g2) hs (asColumn bE1 v) j
      = hs (ix2 (nodeOf (v (ix1 (⟨(j 0).val, idx2_lt0 j⟩ : Fin 1700000)))) (⟨(j 1).val, idx2_lt1 j⟩ : Fin 128)) := by
  rw [SegmentOps.gather_rows_apply (by decide) wg2 _ _ j (ix2 (⟨(j 0).val, idx2_lt0 j⟩ : Fin 1700000) (0 : Fin 1)) rfl]
  refine congrArg hs (congrArg (fun a => ix2 a (⟨(j 1).val, idx2_lt1 j⟩ : Fin 128)) (Fin.ext ?_))
  show min (asColumn bE1 v _).toInt.toNat (100000 - 1) = min (v _).toInt.toNat (100000 - 1)
  rw [asColumn_apply]

/-- Entries gathered at the edges' endpoint words: position e reads entry `nodeOf` of edge e's word. -/
theorem gather_vec_node {α : Type} (f : SN.Idx → α) (v : SE.Idx → BitVec 32) (e : Fin 1700000) :
    Host.gather (g1) f (asColumn bE1 v) (ix1 e) = f (ix1 (nodeOf (v (ix1 e)))) := by
  rw [SegmentOps.gather_vec_apply (by decide) wg1 _ _ (ix1 e) (ix2 e (0 : Fin 1)) rfl]
  refine congrArg f (congrArg (fun a => ix1 a) (Fin.ext ?_))
  show min (asColumn bE1 v _).toInt.toNat (100000 - 1) = min (v _).toInt.toNat (100000 - 1)
  rw [asColumn_apply]

/-! ## Degrees and factors -/

/-- A signed-integer-to-float conversion on the extended reals is the integer itself. -/
theorem sitofp_ideal {w : Nat} (b : BitVec w) : FloatOps.sitofp (F := Ideal) .f32 b = ((b.toInt : ℝ) : EReal) := rfl

/-- The host's reciprocal square root at an index. -/
theorem rsqrt_read {s : Shape} (v : s.Idx → EReal) (i : s.Idx) :
    Host.rsqrt (F := Ideal) (φ := .f32) v i = Ideal.rsqrt (v i) := rfl

theorem numel_SE : SE.numel = 1700000 := by
  show ∏ a : Fin 1, (![1700000] : Fin 1 → ℕ) a = 1700000
  rw [Fin.prod_univ_one]; rfl

/-- The node's degree: the number of edges whose `row` endpoint it is. -/
def deg (row : SE.Idx → BitVec 32) (a : SN.Idx) : Nat := (SegmentOps.targets (d1) (asColumn bE1 row) a).card

variable (row col : SE.Idx → BitVec 32)
  (hself : ∀ n : Fin 100000, row (ix1 (⟨1600000 + n.val, by omega⟩ : Fin 1700000)) = BitVec.ofNat 32 n.val)

include hself in
/-- Every node has an edge: its self loop. -/
theorem deg_pos (a : Fin 100000) : 0 < deg bE1 wf1 row (ix1 a) := by
  unfold deg
  refine Finset.card_pos.mpr ⟨ix1 (⟨1600000 + a.val, by omega⟩ : Fin 1700000), ?_⟩
  rw [SegmentOps.mem_targets]
  refine (SegmentOps.scatter_vec_target wf1 (asColumn bE1 row) _ (ix2 (⟨1600000 + a.val, by omega⟩ : Fin 1700000) (0 : Fin 1)) rfl (ix1 a)).2 ?_
  rw [asColumn_apply]
  show (row (ix1 (⟨1600000 + a.val, _⟩ : Fin 1700000))).toInt = (a.val : Int)
  rw [hself a]
  exact SegmentOps.toInt_ofNat_of_lt a.val (by have := a.isLt; omega)

theorem deg_le (a : SN.Idx) : deg bE1 wf1 row a ≤ 1700000 := by
  unfold deg
  exact (SegmentOps.card_targets_le _ _ _).trans (le_of_eq numel_SE)

/-- The integer count is the degree. -/
theorem countK_apply (a : SN.Idx) : countK bE bN bE1 (d1) row a = BitVec.ofNat 32 (deg bE1 wf1 row a) := by
  unfold countK deg
  have hz : broadcastInDim SN ![] bN (constantI S0 32 0#32) = fun _ => (0#32 : BitVec 32) :=
    funext fun j => (bcast_scalar bN _ j).trans (constantI_apply _ _)
  have ho : broadcastInDim SE ![] bE (constantI S0 32 1#32) = fun _ => (1#32 : BitVec 32) :=
    funext fun j => (bcast_scalar bE _ j).trans (constantI_apply _ _)
  rw [hz, ho]
  exact SegmentOps.scatter_count_targets (d1) _ a

/-- One over the square root of the degree, as a real number. -/
def invSqrtDeg (a : SN.Idx) : ℝ := (Real.sqrt (deg bE1 wf1 row a : ℝ))⁻¹

theorem invSqrtDeg_nonneg (a : SN.Idx) : 0 ≤ invSqrtDeg bE1 wf1 row a :=
  inv_nonneg.mpr (Real.sqrt_nonneg _)

include hself in
theorem rsqrt_deg (a : Fin 100000) :
    Ideal.rsqrt (((deg bE1 wf1 row (ix1 a) : ℝ)) : EReal) = ((invSqrtDeg bE1 wf1 row (ix1 a) : ℝ) : EReal) := by
  have hp : (0 : ℝ) < (deg bE1 wf1 row (ix1 a) : ℝ) := by exact_mod_cast deg_pos bE1 wf1 row hself a
  rw [Ideal.rsqrt_coe, if_neg (not_lt.mpr hp.le), if_neg hp.ne']
  rfl

include hself in
/-- The first program's factor at node a: the integer count, converted, is at least one already. -/
theorem factorColK_apply (a : Fin 100000) :
    factorColK bE bN bE1 cN1 (d1) row (ix2 a (0 : Fin 1)) = ((invSqrtDeg bE1 wf1 row (ix1 a) : ℝ) : EReal) := by
  unfold factorColK
  refine (ColumnCast.stand_column_apply _ cN1 (ix2 a (0 : Fin 1)) a rfl).trans ?_
  have hd1 := deg_pos bE1 wf1 row hself a
  have hd2 := deg_le bE1 wf1 row (ix1 a)
  rw [rsqrt_read, maximumf_apply, sitofp_apply, sitofp_ideal, bcast_scalar, constant_apply, one_word, countK_apply,
    SegmentOps.toInt_ofNat_of_lt _ (by omega), Int.cast_natCast, max_eq_left (by exact_mod_cast hd1)]
  exact rsqrt_deg bE1 wf1 row hself a

include hself in
/-- The second program's factor at node a: zero plus a one for each of the node's edges. -/
theorem factorR_apply (a : Fin 100000) :
    factorR bE bN bE1 (d1) row (ix1 a) = ((invSqrtDeg bE1 wf1 row (ix1 a) : ℝ) : EReal) := by
  unfold factorR
  have hz : broadcastInDim SN ![] bN (constant (F := Ideal) S0 .f32 0x00000000#32) = fun _ => (0 : EReal) :=
    funext fun j => (bcast_scalar bN _ j).trans ((constant_apply _ _).trans Ideal.ofBits_zero_f32)
  have ho : broadcastInDim SE ![] bE (constant (F := Ideal) S0 .f32 0x3F800000#32) = fun _ => (1 : EReal) :=
    funext fun j => (bcast_scalar bE _ j).trans ((constant_apply _ _).trans one_word)
  rw [rsqrt_read, hz, ho, SegmentOps.Host_scatterAdd_ones_targets]
  exact rsqrt_deg bE1 wf1 row hself a

/-! ## The two results at an index -/

theorem scaleRelu_read (a : SND.Idx → EReal) (r : SN1.Idx → EReal) (p : Fin 100000) (q : Fin 128) :
    GcnSpec.scaleRelu a r (ix2 p q) = max (a (ix2 p q) * r (ix2 p (0 : Fin 1))) 0 := rfl

theorem projScaled_read (x : SND.Idx → EReal) (wt : (⟨2, ![128, 128]⟩ : Shape).Idx → EReal) (r : SN1.Idx → EReal)
    (p : Fin 100000) (q : Fin 128) :
    GcnSpec.projScaled x wt r (ix2 p q) = (∑ k : Fin 128, x (ix2 p k) * wt (ix2 k q)) * r (ix2 p (0 : Fin 1)) := rfl

/-- The node at the far end of the edge an update position belongs to. -/
def farNode (j : SED.Idx) : Fin 100000 := nodeOf (wrapIdx bE col (ix1 (⟨(j 0).val, idx2_lt0 j⟩ : Fin 1700000)))

include hself in
/-- THE LAYER: the two programs' operation trees compute one array. `h` is the projected features, given as the
    plain sums `hh` says. -/
theorem kernelOut_eq_refOut (x : SND.Idx → EReal) (wt : (⟨2, ![128, 128]⟩ : Shape).Idx → EReal) (h : SND.Idx → EReal)
    (hh : ∀ (p : Fin 100000) (q : Fin 128), h (ix2 p q) = ∑ k : Fin 128, x (ix2 p k) * wt (ix2 k q)) :
    kernelOut bE bN bND bE1 cN1 (d1) (d2) (g2) x wt row col
      = refOut bE bN bND bE1 bED (d1) (d2) (g1) (g2) h row col := by
  funext i
  obtain ⟨p, q, rfl⟩ : ∃ (p : Fin 100000) (q : Fin 128), i = ix2 p q := ⟨i 0, i 1, eq_ix2 i⟩
  have hzero : broadcastInDim SND ![] bND (constant (F := Ideal) S0 .f32 0x00000000#32) (ix2 p q) = 0 :=
    (bcast_scalar bND _ _).trans ((constant_apply _ _).trans Ideal.ofBits_zero_f32)
  -- the first program: each of the node's edges adds h(c, q) · r(c); the total is multiplied by r(p)
  have hK : kernelOut bE bN bND bE1 cN1 (d1) (d2) (g2) x wt row col (ix2 p q)
      = max ((0 + ∑ j ∈ SegmentOps.targets (d2) (asColumn bE1 row) (ix2 p q),
          h (ix2 (farNode bE col j) (⟨(j 1).val, idx2_lt1 j⟩ : Fin 128))
            * ((invSqrtDeg bE1 wf1 row (ix1 (farNode bE col j)) : ℝ) : EReal))
        * ((invSqrtDeg bE1 wf1 row (ix1 p) : ℝ) : EReal)) 0 := by
    unfold kernelOut
    rw [scaleRelu_read, factorColK_apply bE bN bE1 cN1 wf1 row hself p]
    unfold aggK
    rw [SegmentOps.Host_scatterAdd_targets, hzero]
    refine congrArg (fun z => max (((0 : EReal) + z) * ((invSqrtDeg bE1 wf1 row (ix1 p) : ℝ) : EReal)) 0)
      (Finset.sum_congr rfl fun j _ => ?_)
    rw [gather_rows_node bE1 wg2]
    show GcnSpec.projScaled x wt _ (ix2 (farNode bE col j) (⟨(j 1).val, idx2_lt1 j⟩ : Fin 128)) = _
    rw [projScaled_read, factorColK_apply bE bN bE1 cN1 wf1 row hself (farNode bE col j), hh]
  -- the second program: each of the node's edges adds (r(p) · r(c)) · h(c, q)
  have hR : refOut bE bN bND bE1 bED (d1) (d2) (g1) (g2) h row col (ix2 p q)
      = max (0 + ∑ j ∈ SegmentOps.targets (d2) (asColumn bE1 row) (ix2 p q),
          (((invSqrtDeg bE1 wf1 row (ix1 p) : ℝ) : EReal) * ((invSqrtDeg bE1 wf1 row (ix1 (farNode bE col j)) : ℝ) : EReal))
            * h (ix2 (farNode bE col j) (⟨(j 1).val, idx2_lt1 j⟩ : Fin 128))) 0 := by
    unfold refOut
    rw [maximumf_apply, hzero, SegmentOps.Host_scatterAdd_targets, hzero]
    refine congrArg (fun z => max ((0 : EReal) + z) 0) (Finset.sum_congr rfl fun j hj => ?_)
    -- the edge of this update position starts at node p
    have hrow : (row (ix1 (⟨(j 0).val, idx2_lt0 j⟩ : Fin 1700000))).toInt = (p.val : Int) := by
      have h0 := ((SegmentOps.scatter_rows_target wf2 (asColumn bE1 row) j
        (ix2 (⟨(j 0).val, idx2_lt0 j⟩ : Fin 1700000) (0 : Fin 1)) rfl (ix2 p q)).1
        ((SegmentOps.mem_targets _ _ _ _).1 hj)).1
      rw [asColumn_apply] at h0
      exact h0
    have hw : wrapIdx bE row (ix1 (⟨(j 0).val, idx2_lt0 j⟩ : Fin 1700000)) = row (ix1 (⟨(j 0).val, idx2_lt0 j⟩ : Fin 1700000)) :=
      wrapIdx_of_nonneg bE row _ (by rw [hrow]; exact Int.natCast_nonneg _)
    have hn : nodeOf (wrapIdx bE row (ix1 (⟨(j 0).val, idx2_lt0 j⟩ : Fin 1700000))) = p := by
      rw [hw]; exact nodeOf_of_toInt _ p hrow
    rw [mulf_apply, gather_rows_node bE1 wg2,
      broadcastInDim_apply _ bED _ j (ix2 (⟨(j 0).val, idx2_lt0 j⟩ : Fin 1700000) (0 : Fin 1)) (fun a => by
        match a with
        | ⟨0, _⟩ => rw [if_neg (by decide +revert)]; rfl
        | ⟨1, _⟩ => rw [if_pos (by decide +revert)]; rfl),
      broadcastInDim_apply _ bE1 _ (ix2 (⟨(j 0).val, idx2_lt0 j⟩ : Fin 1700000) (0 : Fin 1)) (ix1 (⟨(j 0).val, idx2_lt0 j⟩ : Fin 1700000)) (fun a => by
        match a with
        | ⟨0, _⟩ => rw [if_neg (by decide +revert)]; rfl)]
    unfold edgeWeightR
    rw [mulf_apply, gather_vec_node bE1 wg1, gather_vec_node bE1 wg1, hn,
      factorR_apply bE bN bE1 wf1 row hself p,
      factorR_apply bE bN bE1 wf1 row hself (nodeOf (wrapIdx bE col (ix1 (⟨(j 0).val, idx2_lt0 j⟩ : Fin 1700000))))]
    rfl
  exact hK.trans ((congrArg (fun z => max z (0 : EReal))
    (scaled_sum _ _ (invSqrtDeg_nonneg bE1 wf1 row (ix1 p)) _ _)).trans hR.symm)

end

end GcnLayer

end
-- ==== Proof.Bridge.lean ====
/-
  The two idealized programs end with one result.

  The kernel program's result buffer holds `GcnLayer.kernelOut` of the features, the transposed weights and the two
  endpoint lists; the reference's holds `GcnLayer.refOut` of the projected features and the same lists. The lists
  end with the nodes 0 … 99999 in order (the self loops), and the projected features are the plain sums of products,
  which is all the layer's equation asks.
-/
import proofs.«123095_j1219770712715_2_alg».proof.Proof.KernelRun
import proofs.«123095_j1219770712715_2_alg».proof.Proof.KernelHost
import proofs.«123095_j1219770712715_2_alg».proof.Proof.RegionForms
import proofs.«123095_j1219770712715_2_alg».proof.Proof.RefForm
import proofs.«123095_j1219770712715_2_alg».proof.Proof.Layer

set_option maxRecDepth 16384

noncomputable section

namespace Cert.Bridge

open Idealize.ShloMosaic Idealize.ShloMosaic.TcCoe Idealize.SL.Sem Idealize.ShloMosaic.ValueIdx

/-- The `row` list's entry for the self loop of node n is the word of n: the list is the edge array's first row
    followed by 0, 1, …, 99999. -/
theorem rowOf_self (e : Cert.KernelIdeal.S2x1600000.Idx → BitVec 32) (n : Fin 100000) :
    Cert.KernelIdeal.HostValue.rowOf e (ix1 (⟨1600000 + n.val, by omega⟩ : Fin 1700000)) = BitVec.ofNat 32 n.val := by
  unfold Cert.KernelIdeal.HostValue.rowOf
  refine (concatenate_pair_apply_right (0 : Fin 1) _ _ Cert.KernelIdeal.Facts₀.concatenates_S1600000_S100000_S1700000_d0
    (ix1 (⟨1600000 + n.val, by omega⟩ : Fin 1700000)) rfl rfl (ix1 n)
    (fun b hb => absurd (Subsingleton.elim _ _) hb) (by show n.val + 1600000 = 1600000 + n.val; omega)).trans ?_
  rfl

/-- The reference's projected features are the plain sums of products of the features and the transposed weights. -/
theorem proj_apply (x0 : Cert.ReferenceIdeal.S100000x128.Idx → EReal) (x2 : Cert.ReferenceIdeal.S128x128.Idx → EReal)
    (p : Fin 100000) (q : Fin 128) :
    Cert.ReferenceIdeal.Read.val_main_v28 (F := Ideal) x0 x2 (ix2 p q)
      = ∑ k : Fin 128, x0 (ix2 p k) * Cert.ReferenceIdeal.Read.val_main_v27 (F := Ideal) x2 (ix2 k q) := by
  rw [Cert.ReferenceIdeal.Read.val_main_v28_apply]
  refine Finset.sum_congr rfl fun k _ => ?_
  have el : Cert.ReferenceIdeal.Read.lidx_main_v28 (ix2 p q) k = ix2 p k :=
    funext fun a => by match a with | ⟨0, _⟩ => rfl | ⟨1, _⟩ => rfl
  have er : Cert.ReferenceIdeal.Read.ridx_main_v28 (ix2 p q) k = ix2 k q :=
    funext fun a => by match a with | ⟨0, _⟩ => rfl | ⟨1, _⟩ => rfl
  rw [el, er]

open Cert.KernelIdeal Cert.KernelIdeal.Gen in
/-- The kernel program's run with its result at the layer's first operation tree. -/
theorem kernel_run (m : (ℓ : Loc Cert.KernelIdeal.nD Cert.KernelIdeal.τ Cert.KernelIdeal.sig) → Buf (Elt Ideal) ℓ)
    (ρ : Dev Cert.KernelIdeal.nD → PrngReg) :
    θ_run Cert.KernelIdeal.defs (onTc (τ := Cert.KernelIdeal.τ) (Cert.KernelIdeal.main (F := Ideal))) ⟨m, fun _ => 0, ρ⟩ (fun r => ∀ c : Dev nD,
      r.2.mem ((c.tc : Thread nD τ).loc main_v28) =
        GcnLayer.kernelOut bcast_S_S1700000 bcast_S_S100000 bcast_S_S100000x128 bcast_S1700000_S1700000x1_0
          shapeCasts_S100000_S100000x1 scatter_S100000_S1700000x1_S1700000_n_0_0_1
          scatter_S100000x128_S1700000x1_S1700000x128_1_0_0_1 gather_S100000x128_S1700000x1_S1700000x128_1_0_n_n_0_1_1128
          (m ((c.tc : Thread nD τ).loc main_arg0))
          (transpose S128x128 [1, 0] (m ((c.tc : Thread nD τ).loc main_arg2)) transposes_S128x128_S128x128_1_0)
          (HostValue.rowOf (m ((c.tc : Thread nD τ).loc main_arg1))) (HostValue.colOf (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run Cert.KernelIdeal.defs _ _).mono
    (fun r h c => ⟨(h c).1.trans (HostValue.W4_result m ρ RegionForms.region0_final RegionForms.region1_final c), (h c).2⟩)
    (RunResult.run_result (F := Ideal) m ρ)

/-- At the same arguments, the kernel program's operation tree and the reference's result stage are one array. -/
theorem result_eq (x0 : Cert.ReferenceIdeal.S100000x128.Idx → EReal) (x1 : Cert.ReferenceIdeal.S2x1600000.Idx → BitVec 32)
    (x2 : Cert.ReferenceIdeal.S128x128.Idx → EReal) :
    Cert.ReferenceIdeal.Read.val_main_v42 (F := Ideal) x0 x1 x2 =
      GcnLayer.kernelOut Cert.KernelIdeal.Facts₀.bcast_S_S1700000 Cert.KernelIdeal.Facts₀.bcast_S_S100000
        Cert.KernelIdeal.Facts₀.bcast_S_S100000x128 Cert.KernelIdeal.Facts₀.bcast_S1700000_S1700000x1_0
        Cert.KernelIdeal.Facts₀.shapeCasts_S100000_S100000x1 Cert.KernelIdeal.scatter_S100000_S1700000x1_S1700000_n_0_0_1
        Cert.KernelIdeal.scatter_S100000x128_S1700000x1_S1700000x128_1_0_0_1
        Cert.KernelIdeal.gather_S100000x128_S1700000x1_S1700000x128_1_0_n_n_0_1_1128
        x0 (transpose Cert.KernelIdeal.S128x128 [1, 0] x2 Cert.KernelIdeal.Facts₀.transposes_S128x128_S128x128_1_0)
        (Cert.KernelIdeal.HostValue.rowOf x1) (Cert.KernelIdeal.HostValue.colOf x1) := by
  rw [Cert.ReferenceIdeal.RefForm.result_eq]
  exact (GcnLayer.kernelOut_eq_refOut Cert.KernelIdeal.Facts₀.bcast_S_S1700000 Cert.KernelIdeal.Facts₀.bcast_S_S100000
    Cert.KernelIdeal.Facts₀.bcast_S_S100000x128 Cert.KernelIdeal.Facts₀.bcast_S1700000_S1700000x1_0
    Cert.ReferenceIdeal.Facts₀.bcast_S1700000x1_S1700000x128_0_1 Cert.KernelIdeal.Facts₀.shapeCasts_S100000_S100000x1
    Cert.KernelIdeal.Facts₀.scatter_S100000_S1700000x1_S1700000_n_0_0_1_wf
    Cert.KernelIdeal.Facts₀.scatter_S100000x128_S1700000x1_S1700000x128_1_0_0_1_wf
    Cert.ReferenceIdeal.Facts₀.gather_S100000_S1700000x1_S1700000_n_0_n_n_0_1_1_wf
    Cert.KernelIdeal.Facts₀.gather_S100000x128_S1700000x1_S1700000x128_1_0_n_n_0_1_1128_wf
    (Cert.KernelIdeal.HostValue.rowOf x1) (Cert.KernelIdeal.HostValue.colOf x1) (rowOf_self x1)
    x0 (transpose Cert.KernelIdeal.S128x128 [1, 0] x2 Cert.KernelIdeal.Facts₀.transposes_S128x128_S128x128_1_0)
    (Cert.ReferenceIdeal.Read.val_main_v28 (F := Ideal) x0 x2) (proj_apply x0 x2)).symm

end Cert.Bridge

end
-- ==== Proof.lean ====
/-
  The certificate of a graph-convolution layer: a kernel program of two pallas_call regions (a projection fused with a
  per-node scaling; a per-node scaling fused with a clamp at zero) around host code that gathers and segment-sums over
  the edges, against a reference that weighs every edge by the product of its endpoints' factors.

  The three frames: the two kernel programs' are the generated frame certificates; the reference's is its generated
  run with the result dropped. The idealization rewrote nothing, so there is nothing to preserve. The algebraic
  claim: at the extended reals both programs end with one array (module Bridge) — the node's factor, a non-negative
  real number because every node has its self loop, moves across the segment sum.
-/
import proofs.«123095_j1219770712715_2_alg».proof.Defs
import proofs.«123095_j1219770712715_2_alg».proof.Proof.Gen.Kernel
import proofs.«123095_j1219770712715_2_alg».proof.Proof.Gen.Kernel.Skeleton
import proofs.«123095_j1219770712715_2_alg».proof.Proof.Gen.Kernel.Launch
import proofs.«123095_j1219770712715_2_alg».proof.Proof.Gen.Kernel.Points
import proofs.«123095_j1219770712715_2_alg».proof.Proof.Gen.Kernel.Frame
import proofs.«123095_j1219770712715_2_alg».proof.Proof.Gen.KernelIdeal
import proofs.«123095_j1219770712715_2_alg».proof.Proof.Gen.KernelIdeal.Skeleton
import proofs.«123095_j1219770712715_2_alg».proof.Proof.Gen.KernelIdeal.Launch
import proofs.«123095_j1219770712715_2_alg».proof.Proof.Gen.KernelIdeal.Points
import proofs.«123095_j1219770712715_2_alg».proof.Proof.Gen.KernelIdeal.Frame
import proofs.«123095_j1219770712715_2_alg».proof.Proof.Gen.ReferenceIdeal
import proofs.«123095_j1219770712715_2_alg».proof.Proof.Gen.Pre_finite_inputs
import proofs.«123095_j1219770712715_2_alg».proof.Proof.Gen.ReferenceIdeal.Run
import proofs.«123095_j1219770712715_2_alg».proof.Proof.Gen.ReferenceIdeal.Read
import proofs.«123095_j1219770712715_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs run and end with the layer's array. -/
theorem algebraic : Cert.algebraic_KernelIdeal_ReferenceIdeal := by
  intro m ρ m' ρ' _ hagree
  refine ⟨_, Cert.Bridge.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v42_eq, (hagree c).1, (hagree c).2.1, (hagree c).2.2]
  exact Cert.Bridge.result_eq _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
